-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x64x128x128 : Shape := ⟨5, ![8, 4, 64, 128, 128]⟩
abbrev S_ : Shape := ⟨0, ![]⟩

class Facts : Prop where
  bcast_S_S8x4x64x128x128 : S_.BroadcastsInDim S8x4x64x128x128 (![] : Fin 0 → Fin S8x4x64x128x128.rank)
  reducesTo_S8x4x64x128x128_S_d0_1_2_3_4 : S8x4x64x128x128.ReducesTo [0, 1, 2, 3, 4] S_
  h_S_ : 0 < S_.numel

variable [Facts]

def fn {F : FTy → Type} [FloatOps F] (main_arg0 : FVec F S8x4x64x128x128 .f32) (main_arg1 : FVec F S8x4x64x128x128 .f32) : IVec S_ 1 :=
  let main_v0 : FVec F S8x4x64x128x128 .f32 := Host.absf main_arg0
  let main_cst : FVec F S_ .f32 := constant S_ .f32 0x7F800000#32
  let main_v1 : FVec F S8x4x64x128x128 .f32 := broadcastInDim S8x4x64x128x128 ![] bcast_S_S8x4x64x128x128 main_cst
  let main_v2 : IVec S8x4x64x128x128 1 := cmpf .olt main_v0 main_v1
  let main_c : IVec S_ 1 := constantI S_ 1 1#1
  let main_v3 : IVec S_ 1 := (fun x v => Host.reduce IntOp.andi x v reducesTo_S8x4x64x128x128_S_d0_1_2_3_4 h_S_) main_v2 main_c
  let main_v4 : FVec F S8x4x64x128x128 .f32 := Host.absf main_arg1
  let main_cst_0 : FVec F S_ .f32 := constant S_ .f32 0x7F800000#32
  let main_v5 : FVec F S8x4x64x128x128 .f32 := broadcastInDim S8x4x64x128x128 ![] bcast_S_S8x4x64x128x128 main_cst_0
  let main_v6 : IVec S8x4x64x128x128 1 := cmpf .olt main_v4 main_v5
  let main_c_1 : IVec S_ 1 := constantI S_ 1 1#1
  let main_v7 : IVec S_ 1 := (fun x v => Host.reduce IntOp.andi x v reducesTo_S8x4x64x128x128_S_d0_1_2_3_4 h_S_) main_v6 main_c_1
  let main_v8 : IVec S_ 1 := andi main_v3 main_v7
  main_v8
-- ==== Kernel.lean ====
abbrev S8x4x64x128x128 : Shape := ⟨5, ![8, 4, 64, 128, 128]⟩
abbrev S2x8x4 : Shape := ⟨3, ![2, 8, 4]⟩
abbrev S_ : Shape := ⟨0, ![]⟩
abbrev S8x4 : Shape := ⟨2, ![8, 4]⟩
abbrev S8 : Shape := ⟨1, ![8]⟩
abbrev S1 : Shape := ⟨1, ![1]⟩
abbrev S8x4x4x128x128 : Shape := ⟨5, ![8, 4, 4, 128, 128]⟩
abbrev S1x8x4 : Shape := ⟨3, ![1, 8, 4]⟩
abbrev S8x4x1x128x128 : Shape := ⟨5, ![8, 4, 1, 128, 128]⟩
abbrev S8x4x1x128 : Shape := ⟨4, ![8, 4, 1, 128]⟩
abbrev S8x4x1 : Shape := ⟨3, ![8, 4, 1]⟩

abbrev nBuf : Space → Nat
  | .hbm => 40
  | .vmem => 10
  | .smem => 0
  | _ => 0

abbrev bufTy : (tb : Table) → Fin (tcTables nBuf tb) → BufTy
  | .hbm, ⟨0, _⟩ => ⟨S8x4x64x128x128, .f32⟩
  | .hbm, ⟨1, _⟩ => ⟨S8x4x64x128x128, .f32⟩
  | .hbm, ⟨2, _⟩ => ⟨S2x8x4, .f32⟩
  | .hbm, ⟨3, _⟩ => ⟨S2x8x4, .f32⟩
  | .hbm, ⟨4, _⟩ => ⟨S2x8x4, .f32⟩
  | .hbm, ⟨5, _⟩ => ⟨S_, .f32⟩
  | .hbm, ⟨6, _⟩ => ⟨S8x4, .f32⟩
  | .hbm, ⟨7, _⟩ => ⟨S_, .f32⟩
  | .hbm, ⟨8, _⟩ => ⟨S8x4, .f32⟩
  | .hbm, ⟨9, _⟩ => ⟨S_, .f32⟩
  | .hbm, ⟨10, _⟩ => ⟨S8x4, .f32⟩
  | .hbm, ⟨11, _⟩ => ⟨S8x4, .f32⟩
  | .hbm, ⟨12, _⟩ => ⟨S_, .f32⟩
  | .hbm, ⟨13, _⟩ => ⟨S8x4, .f32⟩
  | .hbm, ⟨14, _⟩ => ⟨S8x4, .f32⟩
  | .hbm, ⟨15, _⟩ => ⟨S_, .f32⟩
  | .hbm, ⟨16, _⟩ => ⟨S8x4, .f32⟩
  | .hbm, ⟨17, _⟩ => ⟨S8x4, .f32⟩
  | .hbm, ⟨18, _⟩ => ⟨S8x4, .f32⟩
  | .hbm, ⟨19, _⟩ => ⟨S_, .f32⟩
  | .hbm, ⟨20, _⟩ => ⟨S8, .f32⟩
  | .hbm, ⟨21, _⟩ => ⟨S8x4, .f32⟩
  | .hbm, ⟨22, _⟩ => ⟨S_, .f32⟩
  | .hbm, ⟨23, _⟩ => ⟨S8x4, .f32⟩
  | .hbm, ⟨24, _⟩ => ⟨S8x4, .f32⟩
  | .hbm, ⟨25, _⟩ => ⟨S_, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S_, .f32⟩
  | .hbm, ⟨38, _⟩ => ⟨S1, .f32⟩
  | .hbm, ⟨39, _⟩ => ⟨S1, .f32⟩
  | .local _ .vmem, ⟨0, _⟩ => ⟨S8x4x4x128x128, .f32⟩
  | .local _ .vmem, ⟨1, _⟩ => ⟨S8x4x4x128x128, .f32⟩
  | .local _ .vmem, ⟨2, _⟩ => ⟨S8x4x4x128x128, .f32⟩
  | .local _ .vmem, ⟨3, _⟩ => ⟨S8x4x4x128x128, .f32⟩
  | .local _ .vmem, ⟨4, _⟩ => ⟨S1x8x4, .f32⟩
  | .local _ .vmem, ⟨5, _⟩ => ⟨S1x8x4, .f32⟩
  | .local _ .vmem, ⟨6, _⟩ => ⟨S1x8x4, .f32⟩
  | .local _ .vmem, ⟨7, _⟩ => ⟨S1x8x4, .f32⟩
  | .local _ .vmem, ⟨8, _⟩ => ⟨S1x8x4, .f32⟩
  | .local _ .vmem, ⟨9, _⟩ => ⟨S1x8x4, .f32⟩
  | _, _ => ⟨S8x4x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v0_2 : Ref sig .tc := ⟨.hbm, 4, rfl⟩
abbrev main_call0_cst : Ref sig .tc := ⟨.hbm, 5, rfl⟩
abbrev main_call0_v1 : Ref sig .tc := ⟨.hbm, 6, rfl⟩
abbrev main_call0_cst_0 : Ref sig .tc := ⟨.hbm, 7, rfl⟩
abbrev main_call0_v2 : Ref sig .tc := ⟨.hbm, 8, rfl⟩
abbrev main_call0_cst_1 : Ref sig .tc := ⟨.hbm, 9, rfl⟩
abbrev main_call0_v3 : Ref sig .tc := ⟨.hbm, 10, rfl⟩
abbrev main_call0_v4 : Ref sig .tc := ⟨.hbm, 11, rfl⟩
abbrev main_call0_cst_2 : Ref sig .tc := ⟨.hbm, 12, rfl⟩
abbrev main_call0_v5 : Ref sig .tc := ⟨.hbm, 13, rfl⟩
abbrev main_call0_v6 : Ref sig .tc := ⟨.hbm, 14, rfl⟩
abbrev main_call0_cst_3 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_cst_4 : Ref sig .tc := ⟨.hbm, 19, rfl⟩
abbrev main_call0_v10 : Ref sig .tc := ⟨.hbm, 20, rfl⟩
abbrev main_call0_v11 : Ref sig .tc := ⟨.hbm, 21, rfl⟩
abbrev main_call0_cst_5 : Ref sig .tc := ⟨.hbm, 22, rfl⟩
abbrev main_call0_v12 : Ref sig .tc := ⟨.hbm, 23, rfl⟩
abbrev main_call0_v13 : Ref sig .tc := ⟨.hbm, 24, rfl⟩
abbrev main_call0_cst_6 : Ref sig .tc := ⟨.hbm, 25, rfl⟩
abbrev main_call0_v14 : Ref sig .tc := ⟨.hbm, 26, rfl⟩
abbrev main_call0_cst_7 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_cst_8 : Ref sig .tc := ⟨.hbm, 31, rfl⟩
abbrev main_call0_v18 : Ref sig .tc := ⟨.hbm, 32, rfl⟩
abbrev main_call0_v19 : Ref sig .tc := ⟨.hbm, 33, rfl⟩
abbrev main_call0_cst_9 : Ref sig .tc := ⟨.hbm, 34, rfl⟩
abbrev main_call0_v20 : Ref sig .tc := ⟨.hbm, 35, rfl⟩
abbrev main_call0_v21 : Ref sig .tc := ⟨.hbm, 36, rfl⟩
abbrev main_call0_cst_10 : Ref sig .tc := ⟨.hbm, 37, rfl⟩
abbrev main_call0_v22 : Ref sig .tc := ⟨.hbm, 38, rfl⟩
abbrev main_v0 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c4_i32 : BitVec 32 := 4#32
  let v4 : BitVec 32 := Scalar.addi c0_i32_1 c4_i32
  let c1_i32 : BitVec 32 := 1#32
  ⟨c0_i32_1, v4, c1_i32⟩
def k0_off1 (k0_t1 : Fin k0_t1_loop.trips) : Fin 5 → Nat :=
  let c0_20 : Index := 0#32
  let c0_21 : Index := 0#32
  let c0_i32_1 : BitVec 32 := 0#32
  let c1_i32 : BitVec 32 := 1#32
  let arg7 : BitVec 32 := Scf.iv c0_i32_1 c1_i32 k0_t1
  let v25 : Index := Scalar.indexCast arg7
  let c0_22 : Index := 0#32
  let c0_23 : Index := 0#32
  ![0, 0, v25.toNat, 0, 0]
def cc0_transform_0 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v1.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v1.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4x4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S2x8x4_S8x4_d0 : S2x8x4.ReducesTo [0] S8x4
  h_S_ : 0 < S_.numel
  bcast_S_S8x4 : S_.BroadcastsInDim S8x4 (![] : Fin 0 → Fin S8x4.rank)
  reducesTo_S8x4_S8_d1 : S8x4.ReducesTo [1] S8
  bcast_S_S8 : S_.BroadcastsInDim S8 (![] : Fin 0 → Fin S8.rank)
  reducesTo_S8_S_d0 : S8.ReducesTo [0] S_
  bcast_S_S1 : S_.BroadcastsInDim S1 (![] : Fin 0 → Fin S1.rank)
  inb_S1x8x4_S1x8x4_0_0_0 : ∀ a, (![0, 0, 0] : Fin 3 → Nat) a + S1x8x4.size a ≤ S1x8x4.size a
  h_S1x8x4 : 0 < S1x8x4.numel
  shapeCasts_S1x8x4_S8x4 : S1x8x4.ShapeCasts S8x4
  shapeCasts_S8x4_S1x8x4 : S8x4.ShapeCasts S1x8x4
  h_S8x4x1x128x128 : 0 < S8x4x1x128x128.numel
  reduces_S8x4x1x128x128_S8x4x1x128 : S8x4x1x128x128.Reduces [4] S8x4x1x128
  reduces_S8x4x1x128_S8x4x1 : S8x4x1x128.Reduces [3] S8x4x1
  reduces_S8x4x1_S8x4 : S8x4x1.Reduces [2] S8x4
  hrank0 : 0 < grid0.rank
  k0_t1_ok : k0_t1_loop.OK
  k0_off1_inb : ∀ k0_t1 : Fin k0_t1_loop.trips, ∀ a, (k0_off1 k0_t1) a + S8x4x1x128x128.size a ≤ S8x4x4x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4x4x128x128.size a ≤ S8x4x64x128x128.size a
  hwx0_0 : ∀ i : grid0.Coords, EltTy.bits .f32 = 32 ∨ (Rect.block (s := S8x4x64x128x128) S8x4x4x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4x4x128x128.size a ≤ S8x4x64x128x128.size a
  hwx0_1 : ∀ i : grid0.Coords, EltTy.bits .f32 = 32 ∨ (Rect.block (s := S8x4x64x128x128) S8x4x4x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x4.size a ≤ S2x8x4.size a
  hwx0_2 : ∀ i : grid0.Coords, EltTy.bits .f32 = 32 ∨ (Rect.block (s := S2x8x4) S1x8x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x4.size a ≤ S2x8x4.size a
  hwx0_3 : ∀ i : grid0.Coords, EltTy.bits .f32 = 32 ∨ (Rect.block (s := S2x8x4) S1x8x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x4.size a ≤ S2x8x4.size a
  hwx0_4 : ∀ i : grid0.Coords, EltTy.bits .f32 = 32 ∨ (Rect.block (s := S2x8x4) S1x8x4.size (cc0_transform_4 i) (hinb0_4 i)).WholeWords (EltTy.packing .f32)

variable [Facts₀]

abbrev win0_0 : Pipeline.Window sig grid0 :=
  Pipeline.Window.ofSpec (Memref.whole main_arg0) S8x4x4x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x4x4x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_0) S1x8x4.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_1) S1x8x4.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0_2) S1x8x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4x64x128x128 : Shape := ⟨5, ![8, 4, 64, 128, 128]⟩
abbrev S_ : Shape := ⟨0, ![]⟩
abbrev S8x4 : Shape := ⟨2, ![8, 4]⟩
abbrev S8 : Shape := ⟨1, ![8]⟩
abbrev S1 : Shape := ⟨1, ![1]⟩

abbrev nBuf : Space → Nat
  | .hbm => 39
  | .vmem => 0
  | .smem => 0
  | _ => 0

abbrev bufTy : (tb : Table) → Fin (tcTables nBuf tb) → BufTy
  | .hbm, ⟨0, _⟩ => ⟨S8x4x64x128x128, .f32⟩
  | .hbm, ⟨1, _⟩ => ⟨S8x4x64x128x128, .f32⟩
  | .hbm, ⟨2, _⟩ => ⟨S_, .f32⟩
  | .hbm, ⟨3, _⟩ => ⟨S8x4, .f32⟩
  | .hbm, ⟨4, _⟩ => ⟨S8x4, .f32⟩
  | .hbm, ⟨5, _⟩ => ⟨S_, .f32⟩
  | .hbm, ⟨6, _⟩ => ⟨S8x4, .f32⟩
  | .hbm, ⟨7, _⟩ => ⟨S8x4, .f32⟩
  | .hbm, ⟨8, _⟩ => ⟨S_, .f32⟩
  | .hbm, ⟨9, _⟩ => ⟨S8x4, .f32⟩
  | .hbm, ⟨10, _⟩ => ⟨S8x4, .f32⟩
  | .hbm, ⟨11, _⟩ => ⟨S8x4x64x128x128, .f32⟩
  | .hbm, ⟨12, _⟩ => ⟨S_, .f32⟩
  | .hbm, ⟨13, _⟩ => ⟨S8x4, .f32⟩
  | .hbm, ⟨14, _⟩ => ⟨S8x4x64x128x128, .f32⟩
  | .hbm, ⟨15, _⟩ => ⟨S_, .f32⟩
  | .hbm, ⟨16, _⟩ => ⟨S8x4, .f32⟩
  | .hbm, ⟨17, _⟩ => ⟨S8x4, .f32⟩
  | .hbm, ⟨18, _⟩ => ⟨S_, .f32⟩
  | .hbm, ⟨19, _⟩ => ⟨S8, .f32⟩
  | .hbm, ⟨20, _⟩ => ⟨S8x4, .f32⟩
  | .hbm, ⟨21, _⟩ => ⟨S_, .f32⟩
  | .hbm, ⟨22, _⟩ => ⟨S8x4, .f32⟩
  | .hbm, ⟨23, _⟩ => ⟨S8x4, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S_, .f32⟩
  | .hbm, ⟨37, _⟩ => ⟨S1, .f32⟩
  | .hbm, ⟨38, _⟩ => ⟨S1, .f32⟩
  | _, _ => ⟨S8x4x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_v20 : Ref sig .tc := ⟨.hbm, 32, rfl⟩
abbrev main_cst_9 : Ref sig .tc := ⟨.hbm, 33, rfl⟩
abbrev main_v21 : Ref sig .tc := ⟨.hbm, 34, rfl⟩
abbrev main_v22 : Ref sig .tc := ⟨.hbm, 35, rfl⟩
abbrev main_cst_10 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  reducesTo_S8x4x64x128x128_S8x4_d2_3_4 : S8x4x64x128x128.ReducesTo [2, 3, 4] S8x4
  h_S_ : 0 < S_.numel
  bcast_S_S8x4 : S_.BroadcastsInDim S8x4 (![] : Fin 0 → Fin S8x4.rank)
  reducesTo_S8x4_S8_d1 : S8x4.ReducesTo [1] S8
  bcast_S_S8 : S_.BroadcastsInDim S8 (![] : Fin 0 → Fin S8.rank)
  reducesTo_S8_S_d0 : S8.ReducesTo [0] S_
  bcast_S_S1 : S_.BroadcastsInDim S1 (![] : Fin 0 → Fin S1.rank)

variable [Facts₀]

class Facts : Prop extends Facts₀ where

variable [Facts]
-- ==== Proof.BitsPoints.lean ====
/-
  The dice-loss partial-sums kernel runs on a grid of 2 chunks × 8 substeps; its three [1,8,4] output blocks are
  accumulators over the substeps of one chunk.  This module names what the two kinds of grid point share: the
  test "this is a chunk's first substep" (where the body zero-fills the three accumulators before adding into them),
  decided over the grid in closed form, and the staging memrefs the body is called with at a point.
-/
import proofs.«156690_j20658792693788_2_alg».proof.Proof.Gen.Kernel.Frame
import proofs.«156690_j20658792693788_2_alg».proof.Proof.Gen.Kernel.Skeleton
import proofs.«156690_j20658792693788_2_alg».proof.Proof.Gen.Kernel.Loops

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one branch condition, a scalar chain over the substep coordinate: "the substep is 0". -/
abbrev chunkStart (i : grid0.Coords) : Prop :=
  (Scalar.cmpi .ne (Scalar.extui (Scalar.cmpi .eq (BitVec.ofNat 32 (i 1).val) 0#32)) 0#32) = 1#1

/-- Points are numbered chunk-major, so the substep is 0 exactly at the points ≡ 0 (mod 8). -/
theorem chunkStart_iff : ∀ t : Fin cfg0.N, chunkStart (grid0.coords t) ↔ t.val % 8 = 0 :=
  (by decide +kernel : ∀ t : Fin grid0.N, chunkStart (grid0.coords t) ↔ t.val % 8 = 0)

/-- One staging buffer of each output window, through which its contents are stated (any whole buffer of the
    shape reads the same pieces back). -/
abbrev VO2 : View sig .tc .vmem S1x8x4 .f32 := (Memref.whole cc0_stg2_0 : Memref sig .tc .vmem S1x8x4 .f32).view
abbrev VO3 : View sig .tc .vmem S1x8x4 .f32 := (Memref.whole cc0_stg3_0 : Memref sig .tc .vmem S1x8x4 .f32).view
abbrev VO4 : View sig .tc .vmem S1x8x4 .f32 := (Memref.whole cc0_stg4_0 : Memref sig .tc .vmem S1x8x4 .f32).view

/-- Each window's current staging memref at point `t`, as the pipeline passes it to the body, and its wholeness. -/
abbrev ms0 (t : Fin cfg0.N) : Memref sig .tc .vmem S8x4x4x128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x4x4x128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x4 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x4 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x4 .f32 := win0_4.stage (cfg0.slots t 4)
abbrev hs4 (t : Fin cfg0.N) : (ms4 t).IsWhole := hstage0_4 ((cfg0.slots t 4).cast nbuf0_4)

end Cert.Kernel.Body

end
-- ==== Proof.BitsStart.lean ====
/-
  The body at a chunk's FIRST substep.  It reads each accumulator block once (a value nothing uses), overwrites it
  with zeros, sums the four depth slices of the two input blocks in a counted loop carried in registers, and adds the
  loop's three partial sums onto the (now zero) accumulators.  On whole staging memrefs — the inputs at their
  contents, the three accumulators at anything — the body runs to the end, the inputs as they were and each
  accumulator with a list of stored pieces written over what it held; the lists are found by the symbolic run and
  name nothing of what the accumulators held before.
-/
import proofs.«156690_j20658792693788_2_alg».proof.Proof.BitsPoints

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runStart (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i)
    (x0 : Vec F S8x4x4x128x128 .f32) (x1 : Vec F S8x4x4x128x128 .f32) :
    Σ' (L2 : List (View.Piece (Elt F) S1x8x4 .f32)) (L3 : List (View.Piece (Elt F) S1x8x4 .f32)), { L4 : List (View.Piece (Elt F) S1x8x4 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__dice_reduce_kernel i arg2 harg2 arg3 harg3 arg4 harg4 arg5 harg5 arg6 harg6) K } := by
  refine ⟨?_, ?_, ?_, fun E K => ?run⟩
  case run =>
    simp only [cc0__dice_reduce_kernel_eq_skeleton]; unfold cc0__dice_reduce_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.Kernel.Body

end
-- ==== Proof.BitsLater.lean ====
/-
  The body at a LATER substep of a chunk (substep ≠ 0).  Nothing is reset: the body sums the four depth slices of the
  two input blocks in the counted loop and adds the three partial sums onto the accumulators as the substep before left
  them.  On whole staging memrefs — the inputs at their contents, the accumulators at their running contents —
  the body runs to the end, the inputs as they were and each accumulator with the pieces the symbolic run found.
-/
import proofs.«156690_j20658792693788_2_alg».proof.Proof.BitsPoints

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runLater (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i)
    (x0 : Vec F S8x4x4x128x128 .f32) (x1 : Vec F S8x4x4x128x128 .f32)
    (a2 : Vec F S1x8x4 .f32) (a3 : Vec F S1x8x4 .f32) (a4 : Vec F S1x8x4 .f32) :
    Σ' (L2 : List (View.Piece (Elt F) S1x8x4 .f32)) (L3 : List (View.Piece (Elt F) S1x8x4 .f32)), { L4 : List (View.Piece (Elt F) S1x8x4 .f32) //
      ∀ (E : Set ℕ) (K : PUnit → sProp 𝕄),
        iprop(owns (c : Thread nD τ) arg2 fullShare x0 ∗ owns (c : Thread nD τ) arg3 fullShare x1 ∗ owns (c : Thread nD τ) arg4 fullShare a2 ∗ owns (c : Thread nD τ) arg5 fullShare a3 ∗ owns (c : Thread nD τ) arg6 fullShare a4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__dice_reduce_kernel i arg2 harg2 arg3 harg3 arg4 harg4 arg5 harg5 arg6 harg6) K } := by
  refine ⟨?_, ?_, ?_, fun E K => ?run⟩
  case run =>
    simp only [cc0__dice_reduce_kernel_eq_skeleton]; unfold cc0__dice_reduce_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.Kernel.Body

end
-- ==== Proof.BitsFrame.lean ====
/-
  The pipeline's run from the body's two runs.  The three output blocks are accumulators that live in their staging
  buffers across the eight substeps of a chunk and are written back after the last one.  What they hold after grid
  point n is defined by recursion on n: at a chunk's first substep it is what the resetting run leaves (from the
  point's input blocks alone), at any other what the adding run leaves over what the point before left — the buffer
  is not written back in between.  With that as the proof data the body obligation holds at every point, the
  pipeline's frame theorem runs @main — the region, then the host lines after it —, and the argument arrays end
  unchanged.
-/
import proofs.«156690_j20658792693788_2_alg».proof.Proof.BitsStart
import proofs.«156690_j20658792693788_2_alg».proof.Proof.BitsLater

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each run's stores cover each accumulator block -/

theorem coverStart2 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i)
    (x0 x1 : Vec F S8x4x4x128x128 .f32) (y : S1x8x4.Idx) :
    ∃ pc ∈ (runStart c i arg2 harg2 arg3 harg3 arg4 harg4 arg5 harg5 arg6 harg6 hc0 x0 x1).1, y ∈ pc.1.set :=
  View.cover_of_tiledL (runStart c i arg2 harg2 arg3 harg3 arg4 harg4 arg5 harg5 arg6 harg6 hc0 x0 x1).1 S1x8x4.size (by sl_kernel_rfl) y
theorem coverStart3 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i)
    (x0 x1 : Vec F S8x4x4x128x128 .f32) (y : S1x8x4.Idx) :
    ∃ pc ∈ (runStart c i arg2 harg2 arg3 harg3 arg4 harg4 arg5 harg5 arg6 harg6 hc0 x0 x1).2.1, y ∈ pc.1.set :=
  View.cover_of_tiledL (runStart c i arg2 harg2 arg3 harg3 arg4 harg4 arg5 harg5 arg6 harg6 hc0 x0 x1).2.1 S1x8x4.size (by sl_kernel_rfl) y
theorem coverStart4 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i)
    (x0 x1 : Vec F S8x4x4x128x128 .f32) (y : S1x8x4.Idx) :
    ∃ pc ∈ (runStart c i arg2 harg2 arg3 harg3 arg4 harg4 arg5 harg5 arg6 harg6 hc0 x0 x1).2.2.1, y ∈ pc.1.set :=
  View.cover_of_tiledL (runStart c i arg2 harg2 arg3 harg3 arg4 harg4 arg5 harg5 arg6 harg6 hc0 x0 x1).2.2.1 S1x8x4.size (by sl_kernel_rfl) y
theorem coverLater2 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i)
    (x0 x1 : Vec F S8x4x4x128x128 .f32) (a2 a3 a4 : Vec F S1x8x4 .f32) (y : S1x8x4.Idx) :
    ∃ pc ∈ (runLater c i arg2 harg2 arg3 harg3 arg4 harg4 arg5 harg5 arg6 harg6 hc0 x0 x1 a2 a3 a4).1, y ∈ pc.1.set :=
  View.cover_of_tiledL (runLater c i arg2 harg2 arg3 harg3 arg4 harg4 arg5 harg5 arg6 harg6 hc0 x0 x1 a2 a3 a4).1 S1x8x4.size (by sl_kernel_rfl) y
theorem coverLater3 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i)
    (x0 x1 : Vec F S8x4x4x128x128 .f32) (a2 a3 a4 : Vec F S1x8x4 .f32) (y : S1x8x4.Idx) :
    ∃ pc ∈ (runLater c i arg2 harg2 arg3 harg3 arg4 harg4 arg5 harg5 arg6 harg6 hc0 x0 x1 a2 a3 a4).2.1, y ∈ pc.1.set :=
  View.cover_of_tiledL (runLater c i arg2 harg2 arg3 harg3 arg4 harg4 arg5 harg5 arg6 harg6 hc0 x0 x1 a2 a3 a4).2.1 S1x8x4.size (by sl_kernel_rfl) y
theorem coverLater4 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i)
    (x0 x1 : Vec F S8x4x4x128x128 .f32) (a2 a3 a4 : Vec F S1x8x4 .f32) (y : S1x8x4.Idx) :
    ∃ pc ∈ (runLater c i arg2 harg2 arg3 harg3 arg4 harg4 arg5 harg5 arg6 harg6 hc0 x0 x1 a2 a3 a4).2.2.1, y ∈ pc.1.set :=
  View.cover_of_tiledL (runLater c i arg2 harg2 arg3 harg3 arg4 harg4 arg5 harg5 arg6 harg6 hc0 x0 x1 a2 a3 a4).2.2.1 S1x8x4.size (by sl_kernel_rfl) y

/-! ## What the accumulators hold after one run: the stored pieces read back -/

def heldStart2 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i) (x0 x1 : Vec F S8x4x4x128x128 .f32) : Vec F S1x8x4 .f32 :=
  VO2.read (Elt F) (VO2.writes (Elt F) VO2.junk (runStart c i arg2 harg2 arg3 harg3 arg4 harg4 arg5 harg5 arg6 harg6 hc0 x0 x1).1)
def heldStart3 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i) (x0 x1 : Vec F S8x4x4x128x128 .f32) : Vec F S1x8x4 .f32 :=
  VO3.read (Elt F) (VO3.writes (Elt F) VO3.junk (runStart c i arg2 harg2 arg3 harg3 arg4 harg4 arg5 harg5 arg6 harg6 hc0 x0 x1).2.1)
def heldStart4 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i) (x0 x1 : Vec F S8x4x4x128x128 .f32) : Vec F S1x8x4 .f32 :=
  VO4.read (Elt F) (VO4.writes (Elt F) VO4.junk (runStart c i arg2 harg2 arg3 harg3 arg4 harg4 arg5 harg5 arg6 harg6 hc0 x0 x1).2.2.1)
def heldLater2 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i) (x0 x1 : Vec F S8x4x4x128x128 .f32) (a : Vec F S1x8x4 .f32 × Vec F S1x8x4 .f32 × Vec F S1x8x4 .f32) : Vec F S1x8x4 .f32 :=
  VO2.read (Elt F) (VO2.writes (Elt F) VO2.junk (runLater c i arg2 harg2 arg3 harg3 arg4 harg4 arg5 harg5 arg6 harg6 hc0 x0 x1 a.1 a.2.1 a.2.2).1)
def heldLater3 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i) (x0 x1 : Vec F S8x4x4x128x128 .f32) (a : Vec F S1x8x4 .f32 × Vec F S1x8x4 .f32 × Vec F S1x8x4 .f32) : Vec F S1x8x4 .f32 :=
  VO3.read (Elt F) (VO3.writes (Elt F) VO3.junk (runLater c i arg2 harg2 arg3 harg3 arg4 harg4 arg5 harg5 arg6 harg6 hc0 x0 x1 a.1 a.2.1 a.2.2).2.1)
def heldLater4 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i) (x0 x1 : Vec F S8x4x4x128x128 .f32) (a : Vec F S1x8x4 .f32 × Vec F S1x8x4 .f32 × Vec F S1x8x4 .f32) : Vec F S1x8x4 .f32 :=
  VO4.read (Elt F) (VO4.writes (Elt F) VO4.junk (runLater c i arg2 harg2 arg3 harg3 arg4 harg4 arg5 harg5 arg6 harg6 hc0 x0 x1 a.1 a.2.1 a.2.2).2.2.1)

/-! ## The accumulators point by point -/

/-- The three accumulators' contents after the body at point `n`. -/
def heldAt (c : Dev nD) : (n : ℕ) → n < cfg0.N → Vec F S1x8x4 .f32 × Vec F S1x8x4 .f32 × Vec F S1x8x4 .f32
  | 0, hn =>
    (heldStart2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((chunkStart_iff ⟨0, hn⟩).mpr (Nat.zero_mod _)) (iblk m c 0 ⟨0, hn⟩) (iblk m c 1 ⟨0, hn⟩),
     heldStart3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((chunkStart_iff ⟨0, hn⟩).mpr (Nat.zero_mod _)) (iblk m c 0 ⟨0, hn⟩) (iblk m c 1 ⟨0, hn⟩),
     heldStart4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((chunkStart_iff ⟨0, hn⟩).mpr (Nat.zero_mod _)) (iblk m c 0 ⟨0, hn⟩) (iblk m c 1 ⟨0, hn⟩))
  | n + 1, hn =>
    if h0 : (n + 1) % 8 = 0 then
      (heldStart2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((chunkStart_iff ⟨n + 1, hn⟩).mpr h0) (iblk m c 0 ⟨n + 1, hn⟩) (iblk m c 1 ⟨n + 1, hn⟩),
       heldStart3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((chunkStart_iff ⟨n + 1, hn⟩).mpr h0) (iblk m c 0 ⟨n + 1, hn⟩) (iblk m c 1 ⟨n + 1, hn⟩),
       heldStart4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((chunkStart_iff ⟨n + 1, hn⟩).mpr h0) (iblk m c 0 ⟨n + 1, hn⟩) (iblk m c 1 ⟨n + 1, hn⟩))
    else
      (heldLater2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((chunkStart_iff ⟨n + 1, hn⟩).mp h)) (iblk m c 0 ⟨n + 1, hn⟩) (iblk m c 1 ⟨n + 1, hn⟩) (heldAt c n (Nat.lt_of_succ_lt hn)),
       heldLater3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((chunkStart_iff ⟨n + 1, hn⟩).mp h)) (iblk m c 0 ⟨n + 1, hn⟩) (iblk m c 1 ⟨n + 1, hn⟩) (heldAt c n (Nat.lt_of_succ_lt hn)),
       heldLater4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((chunkStart_iff ⟨n + 1, hn⟩).mp h)) (iblk m c 0 ⟨n + 1, hn⟩) (iblk m c 1 ⟨n + 1, hn⟩) (heldAt c n (Nat.lt_of_succ_lt hn)))

/-- At a chunk's first substep: the resetting run's contents. -/
theorem heldAt_start (c : Dev nD) (t : Fin cfg0.N) (h0 : t.val % 8 = 0) :
    heldAt m c t.val t.isLt =
      (heldStart2 c (grid0.coords t) (ms0 t) (hs0 t) (ms1 t) (hs1 t) (ms2 t) (hs2 t) (ms3 t) (hs3 t) (ms4 t) (hs4 t) ((chunkStart_iff t).mpr h0) (iblk m c 0 t) (iblk m c 1 t),
       heldStart3 c (grid0.coords t) (ms0 t) (hs0 t) (ms1 t) (hs1 t) (ms2 t) (hs2 t) (ms3 t) (hs3 t) (ms4 t) (hs4 t) ((chunkStart_iff t).mpr h0) (iblk m c 0 t) (iblk m c 1 t),
       heldStart4 c (grid0.coords t) (ms0 t) (hs0 t) (ms1 t) (hs1 t) (ms2 t) (hs2 t) (ms3 t) (hs3 t) (ms4 t) (hs4 t) ((chunkStart_iff t).mpr h0) (iblk m c 0 t) (iblk m c 1 t)) := by
  obtain ⟨n, hn⟩ := t
  cases n with
  | zero => exact rfl
  | succ n => exact (dif_pos h0).trans rfl

/-- At any other substep: the adding run's contents over what the point before left. -/
theorem heldAt_later (c : Dev nD) (t : Fin cfg0.N) (h0 : ¬t.val % 8 = 0) :
    heldAt m c t.val t.isLt =
      (heldLater2 c (grid0.coords t) (ms0 t) (hs0 t) (ms1 t) (hs1 t) (ms2 t) (hs2 t) (ms3 t) (hs3 t) (ms4 t) (hs4 t) (fun h => h0 ((chunkStart_iff t).mp h)) (iblk m c 0 t) (iblk m c 1 t) (heldAt m c (t.val - 1) (Nat.lt_of_le_of_lt (Nat.sub_le _ _) t.isLt)),
       heldLater3 c (grid0.coords t) (ms0 t) (hs0 t) (ms1 t) (hs1 t) (ms2 t) (hs2 t) (ms3 t) (hs3 t) (ms4 t) (hs4 t) (fun h => h0 ((chunkStart_iff t).mp h)) (iblk m c 0 t) (iblk m c 1 t) (heldAt m c (t.val - 1) (Nat.lt_of_le_of_lt (Nat.sub_le _ _) t.isLt)),
       heldLater4 c (grid0.coords t) (ms0 t) (hs0 t) (ms1 t) (hs1 t) (ms2 t) (hs2 t) (ms3 t) (hs3 t) (ms4 t) (hs4 t) (fun h => h0 ((chunkStart_iff t).mp h)) (iblk m c 0 t) (iblk m c 1 t) (heldAt m c (t.val - 1) (Nat.lt_of_le_of_lt (Nat.sub_le _ _) t.isLt))) := by
  obtain ⟨n, hn⟩ := t
  cases n with
  | zero => exact (by exfalso; (try dsimp only at h0); exact absurd (Nat.zero_mod _) h0)
  | succ n => exact (dif_neg h0).trans rfl

/-! ## The proof data -/

/-- On core `c`: the arrays as the region finds them; after the body at point `t` each input's buffer at its block and
    the three accumulators at `heldAt`; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (heldAt m c t.val t.isLt).1
    | ⟨3, _⟩ => (heldAt m c t.val t.isLt).2.1
    | ⟨4, _⟩ => (heldAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (heldAt m c t.val t.isLt).1 := by dsimp only [dats]
theorem after3 (c : Dev nD) (t : Fin cfg0.N) : (dats m 0 c).after 3 t = (heldAt m c t.val t.isLt).2.1 := by dsimp only [dats]
theorem after4 (c : Dev nD) (t : Fin cfg0.N) : (dats m 0 c).after 4 t = (heldAt m c t.val t.isLt).2.2 := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Within a chunk (substep ≠ 0) an accumulator's current staging buffer holds what the body left at the point
    before: that point is not a chunk's last, so the block was not written back in between. -/
theorem before2_later (c : Dev nD) (t : Fin cfg0.N) (h0 : ¬t.val % 8 = 0) (d) :
    (dats m 0 c).before 2 t d = (heldAt m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_later (c : Dev nD) (t : Fin cfg0.N) (h0 : ¬t.val % 8 = 0) (d) :
    (dats m 0 c).before 3 t d = (heldAt m c (t.val - 1) (Nat.lt_of_le_of_lt (Nat.sub_le _ _) t.isLt)).2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
theorem before4_later (c : Dev nD) (t : Fin cfg0.N) (h0 : ¬t.val % 8 = 0) (d) :
    (dats m 0 c).before 4 t d = (heldAt m c (t.val - 1) (Nat.lt_of_le_of_lt (Nat.sub_le _ _) t.isLt)).2.2 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, after4]
  have hN : t.val < 16 := lt_of_lt_of_eq t.isLt (show cfg0.N = 16 from N_0)
  by_cases h0 : t.val % 8 = 0
  · rw [heldAt_start m c t h0]
    dsimp only
    unfold heldStart2 heldStart3 heldStart4
    iintro ⟨HΦ, Ho, ⟨%d0, H0⟩, ⟨%d1, H1⟩, ⟨%d2, H2⟩, ⟨%d3, H3⟩, ⟨%d4, H4⟩⟩
    iapply ((runStart c (grid0.coords t) _ _ _ _ _ _ _ _ _ _ ((chunkStart_iff t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverStart2 c _ _ _ _ _ _ _ _ _ _ _ _ _ _)
    isplitl [H3]
    · unfold owns; iexists _; isplitr
      swap; · iexact H3
      ipureintro; exact View.read_writes_of_cover _ _ _ _ _ (coverStart3 c _ _ _ _ _ _ _ _ _ _ _ _ _ _)
    unfold owns; iexists _; isplitr
    swap; · iexact H4
    ipureintro; exact View.read_writes_of_cover _ _ _ _ _ (coverStart4 c _ _ _ _ _ _ _ _ _ _ _ _ _ _)
  · rw [heldAt_later m c t h0]
    simp only [before2_later m c t h0, before3_later m c t h0, before4_later m c t h0]
    unfold heldLater2 heldLater3 heldLater4
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((chunkStart_iff t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater2 c _ _ _ _ _ _ _ _ _ _ _ _ _ _ _ _ _)
    isplitl [H3]
    · unfold owns; iexists _; isplitr
      swap; · iexact H3
      ipureintro; exact View.read_writes_of_cover _ _ _ _ _ (coverLater3 c _ _ _ _ _ _ _ _ _ _ _ _ _ _ _ _ _)
    unfold owns; iexists _; isplitr
    swap; · iexact H4
    ipureintro; exact View.read_writes_of_cover _ _ _ _ _ (coverLater4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the library computes
    from the proof data, and every other unscoped buffer at what the host lines after the region leave there. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of this program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealPoints.lean ====
/-
  The dice-loss partial-sums kernel runs on a grid of 2 chunks × 8 substeps; its three [1,8,4] output blocks are
  accumulators over the substeps of one chunk.  This module names what the two kinds of grid point share: the
  test "this is a chunk's first substep" (where the body zero-fills the three accumulators before adding into them),
  decided over the grid in closed form, and the staging memrefs the body is called with at a point.
-/
import proofs.«156690_j20658792693788_2_alg».proof.Proof.Gen.KernelIdeal.Frame
import proofs.«156690_j20658792693788_2_alg».proof.Proof.Gen.KernelIdeal.Skeleton
import proofs.«156690_j20658792693788_2_alg».proof.Proof.Gen.KernelIdeal.Loops

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition, a scalar chain over the substep coordinate: "the substep is 0". -/
abbrev chunkStart (i : grid0.Coords) : Prop :=
  (Scalar.cmpi .ne (Scalar.extui (Scalar.cmpi .eq (BitVec.ofNat 32 (i 1).val) 0#32)) 0#32) = 1#1

/-- Points are numbered chunk-major, so the substep is 0 exactly at the points ≡ 0 (mod 8). -/
theorem chunkStart_iff : ∀ t : Fin cfg0.N, chunkStart (grid0.coords t) ↔ t.val % 8 = 0 :=
  (by decide +kernel : ∀ t : Fin grid0.N, chunkStart (grid0.coords t) ↔ t.val % 8 = 0)

/-- One staging buffer of each output window, through which its contents are stated (any whole buffer of the
    shape reads the same pieces back). -/
abbrev VO2 : View sig .tc .vmem S1x8x4 .f32 := (Memref.whole cc0_stg2_0 : Memref sig .tc .vmem S1x8x4 .f32).view
abbrev VO3 : View sig .tc .vmem S1x8x4 .f32 := (Memref.whole cc0_stg3_0 : Memref sig .tc .vmem S1x8x4 .f32).view
abbrev VO4 : View sig .tc .vmem S1x8x4 .f32 := (Memref.whole cc0_stg4_0 : Memref sig .tc .vmem S1x8x4 .f32).view

/-- Each window's current staging memref at point `t`, as the pipeline passes it to the body, and its wholeness. -/
abbrev ms0 (t : Fin cfg0.N) : Memref sig .tc .vmem S8x4x4x128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x4x4x128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x4 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x4 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x4 .f32 := win0_4.stage (cfg0.slots t 4)
abbrev hs4 (t : Fin cfg0.N) : (ms4 t).IsWhole := hstage0_4 ((cfg0.slots t 4).cast nbuf0_4)

end Cert.KernelIdeal.Body

end
-- ==== Proof.IdealStart.lean ====
/-
  The body at a chunk's FIRST substep.  It reads each accumulator block once (a value nothing uses), overwrites it
  with zeros, sums the four depth slices of the two input blocks in a counted loop carried in registers, and adds the
  loop's three partial sums onto the (now zero) accumulators.  On whole staging memrefs — the inputs at their
  contents, the three accumulators at anything — the body runs to the end, the inputs as they were and each
  accumulator with a list of stored pieces written over what it held; the lists are found by the symbolic run and
  name nothing of what the accumulators held before.
-/
import proofs.«156690_j20658792693788_2_alg».proof.Proof.IdealPoints

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runStart (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i)
    (x0 : Vec F S8x4x4x128x128 .f32) (x1 : Vec F S8x4x4x128x128 .f32) :
    Σ' (L2 : List (View.Piece (Elt F) S1x8x4 .f32)) (L3 : List (View.Piece (Elt F) S1x8x4 .f32)), { L4 : List (View.Piece (Elt F) S1x8x4 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__dice_reduce_kernel i arg2 harg2 arg3 harg3 arg4 harg4 arg5 harg5 arg6 harg6) K } := by
  refine ⟨?_, ?_, ?_, fun E K => ?run⟩
  case run =>
    simp only [cc0__dice_reduce_kernel_eq_skeleton]; unfold cc0__dice_reduce_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.KernelIdeal.Body

end
-- ==== Proof.IdealLater.lean ====
/-
  The body at a LATER substep of a chunk (substep ≠ 0).  Nothing is reset: the body sums the four depth slices of the
  two input blocks in the counted loop and adds the three partial sums onto the accumulators as the substep before left
  them.  On whole staging memrefs — the inputs at their contents, the accumulators at their running contents —
  the body runs to the end, the inputs as they were and each accumulator with the pieces the symbolic run found.
-/
import proofs.«156690_j20658792693788_2_alg».proof.Proof.IdealPoints

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runLater (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i)
    (x0 : Vec F S8x4x4x128x128 .f32) (x1 : Vec F S8x4x4x128x128 .f32)
    (a2 : Vec F S1x8x4 .f32) (a3 : Vec F S1x8x4 .f32) (a4 : Vec F S1x8x4 .f32) :
    Σ' (L2 : List (View.Piece (Elt F) S1x8x4 .f32)) (L3 : List (View.Piece (Elt F) S1x8x4 .f32)), { L4 : List (View.Piece (Elt F) S1x8x4 .f32) //
      ∀ (E : Set ℕ) (K : PUnit → sProp 𝕄),
        iprop(owns (c : Thread nD τ) arg2 fullShare x0 ∗ owns (c : Thread nD τ) arg3 fullShare x1 ∗ owns (c : Thread nD τ) arg4 fullShare a2 ∗ owns (c : Thread nD τ) arg5 fullShare a3 ∗ owns (c : Thread nD τ) arg6 fullShare a4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__dice_reduce_kernel i arg2 harg2 arg3 harg3 arg4 harg4 arg5 harg5 arg6 harg6) K } := by
  refine ⟨?_, ?_, ?_, fun E K => ?run⟩
  case run =>
    simp only [cc0__dice_reduce_kernel_eq_skeleton]; unfold cc0__dice_reduce_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.KernelIdeal.Body

end
-- ==== Proof.IdealFrame.lean ====
/-
  The pipeline's run from the body's two runs.  The three output blocks are accumulators that live in their staging
  buffers across the eight substeps of a chunk and are written back after the last one.  What they hold after grid
  point n is defined by recursion on n: at a chunk's first substep it is what the resetting run leaves (from the
  point's input blocks alone), at any other what the adding run leaves over what the point before left — the buffer
  is not written back in between.  With that as the proof data the body obligation holds at every point, the
  pipeline's frame theorem runs @main — the region, then the host lines after it —, and the argument arrays end
  unchanged.
-/
import proofs.«156690_j20658792693788_2_alg».proof.Proof.IdealStart
import proofs.«156690_j20658792693788_2_alg».proof.Proof.IdealLater

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each run's stores cover each accumulator block -/

theorem coverStart2 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i)
    (x0 x1 : Vec F S8x4x4x128x128 .f32) (y : S1x8x4.Idx) :
    ∃ pc ∈ (runStart c i arg2 harg2 arg3 harg3 arg4 harg4 arg5 harg5 arg6 harg6 hc0 x0 x1).1, y ∈ pc.1.set :=
  View.cover_of_tiledL (runStart c i arg2 harg2 arg3 harg3 arg4 harg4 arg5 harg5 arg6 harg6 hc0 x0 x1).1 S1x8x4.size (by sl_kernel_rfl) y
theorem coverStart3 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i)
    (x0 x1 : Vec F S8x4x4x128x128 .f32) (y : S1x8x4.Idx) :
    ∃ pc ∈ (runStart c i arg2 harg2 arg3 harg3 arg4 harg4 arg5 harg5 arg6 harg6 hc0 x0 x1).2.1, y ∈ pc.1.set :=
  View.cover_of_tiledL (runStart c i arg2 harg2 arg3 harg3 arg4 harg4 arg5 harg5 arg6 harg6 hc0 x0 x1).2.1 S1x8x4.size (by sl_kernel_rfl) y
theorem coverStart4 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i)
    (x0 x1 : Vec F S8x4x4x128x128 .f32) (y : S1x8x4.Idx) :
    ∃ pc ∈ (runStart c i arg2 harg2 arg3 harg3 arg4 harg4 arg5 harg5 arg6 harg6 hc0 x0 x1).2.2.1, y ∈ pc.1.set :=
  View.cover_of_tiledL (runStart c i arg2 harg2 arg3 harg3 arg4 harg4 arg5 harg5 arg6 harg6 hc0 x0 x1).2.2.1 S1x8x4.size (by sl_kernel_rfl) y
theorem coverLater2 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i)
    (x0 x1 : Vec F S8x4x4x128x128 .f32) (a2 a3 a4 : Vec F S1x8x4 .f32) (y : S1x8x4.Idx) :
    ∃ pc ∈ (runLater c i arg2 harg2 arg3 harg3 arg4 harg4 arg5 harg5 arg6 harg6 hc0 x0 x1 a2 a3 a4).1, y ∈ pc.1.set :=
  View.cover_of_tiledL (runLater c i arg2 harg2 arg3 harg3 arg4 harg4 arg5 harg5 arg6 harg6 hc0 x0 x1 a2 a3 a4).1 S1x8x4.size (by sl_kernel_rfl) y
theorem coverLater3 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i)
    (x0 x1 : Vec F S8x4x4x128x128 .f32) (a2 a3 a4 : Vec F S1x8x4 .f32) (y : S1x8x4.Idx) :
    ∃ pc ∈ (runLater c i arg2 harg2 arg3 harg3 arg4 harg4 arg5 harg5 arg6 harg6 hc0 x0 x1 a2 a3 a4).2.1, y ∈ pc.1.set :=
  View.cover_of_tiledL (runLater c i arg2 harg2 arg3 harg3 arg4 harg4 arg5 harg5 arg6 harg6 hc0 x0 x1 a2 a3 a4).2.1 S1x8x4.size (by sl_kernel_rfl) y
theorem coverLater4 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i)
    (x0 x1 : Vec F S8x4x4x128x128 .f32) (a2 a3 a4 : Vec F S1x8x4 .f32) (y : S1x8x4.Idx) :
    ∃ pc ∈ (runLater c i arg2 harg2 arg3 harg3 arg4 harg4 arg5 harg5 arg6 harg6 hc0 x0 x1 a2 a3 a4).2.2.1, y ∈ pc.1.set :=
  View.cover_of_tiledL (runLater c i arg2 harg2 arg3 harg3 arg4 harg4 arg5 harg5 arg6 harg6 hc0 x0 x1 a2 a3 a4).2.2.1 S1x8x4.size (by sl_kernel_rfl) y

/-! ## What the accumulators hold after one run: the stored pieces read back -/

def heldStart2 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i) (x0 x1 : Vec F S8x4x4x128x128 .f32) : Vec F S1x8x4 .f32 :=
  VO2.read (Elt F) (VO2.writes (Elt F) VO2.junk (runStart c i arg2 harg2 arg3 harg3 arg4 harg4 arg5 harg5 arg6 harg6 hc0 x0 x1).1)
def heldStart3 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i) (x0 x1 : Vec F S8x4x4x128x128 .f32) : Vec F S1x8x4 .f32 :=
  VO3.read (Elt F) (VO3.writes (Elt F) VO3.junk (runStart c i arg2 harg2 arg3 harg3 arg4 harg4 arg5 harg5 arg6 harg6 hc0 x0 x1).2.1)
def heldStart4 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i) (x0 x1 : Vec F S8x4x4x128x128 .f32) : Vec F S1x8x4 .f32 :=
  VO4.read (Elt F) (VO4.writes (Elt F) VO4.junk (runStart c i arg2 harg2 arg3 harg3 arg4 harg4 arg5 harg5 arg6 harg6 hc0 x0 x1).2.2.1)
def heldLater2 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i) (x0 x1 : Vec F S8x4x4x128x128 .f32) (a : Vec F S1x8x4 .f32 × Vec F S1x8x4 .f32 × Vec F S1x8x4 .f32) : Vec F S1x8x4 .f32 :=
  VO2.read (Elt F) (VO2.writes (Elt F) VO2.junk (runLater c i arg2 harg2 arg3 harg3 arg4 harg4 arg5 harg5 arg6 harg6 hc0 x0 x1 a.1 a.2.1 a.2.2).1)
def heldLater3 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i) (x0 x1 : Vec F S8x4x4x128x128 .f32) (a : Vec F S1x8x4 .f32 × Vec F S1x8x4 .f32 × Vec F S1x8x4 .f32) : Vec F S1x8x4 .f32 :=
  VO3.read (Elt F) (VO3.writes (Elt F) VO3.junk (runLater c i arg2 harg2 arg3 harg3 arg4 harg4 arg5 harg5 arg6 harg6 hc0 x0 x1 a.1 a.2.1 a.2.2).2.1)
def heldLater4 (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i) (x0 x1 : Vec F S8x4x4x128x128 .f32) (a : Vec F S1x8x4 .f32 × Vec F S1x8x4 .f32 × Vec F S1x8x4 .f32) : Vec F S1x8x4 .f32 :=
  VO4.read (Elt F) (VO4.writes (Elt F) VO4.junk (runLater c i arg2 harg2 arg3 harg3 arg4 harg4 arg5 harg5 arg6 harg6 hc0 x0 x1 a.1 a.2.1 a.2.2).2.2.1)

/-! ## The accumulators point by point -/

/-- The three accumulators' contents after the body at point `n`. -/
def heldAt (c : Dev nD) : (n : ℕ) → n < cfg0.N → Vec F S1x8x4 .f32 × Vec F S1x8x4 .f32 × Vec F S1x8x4 .f32
  | 0, hn =>
    (heldStart2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((chunkStart_iff ⟨0, hn⟩).mpr (Nat.zero_mod _)) (iblk m c 0 ⟨0, hn⟩) (iblk m c 1 ⟨0, hn⟩),
     heldStart3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((chunkStart_iff ⟨0, hn⟩).mpr (Nat.zero_mod _)) (iblk m c 0 ⟨0, hn⟩) (iblk m c 1 ⟨0, hn⟩),
     heldStart4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((chunkStart_iff ⟨0, hn⟩).mpr (Nat.zero_mod _)) (iblk m c 0 ⟨0, hn⟩) (iblk m c 1 ⟨0, hn⟩))
  | n + 1, hn =>
    if h0 : (n + 1) % 8 = 0 then
      (heldStart2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((chunkStart_iff ⟨n + 1, hn⟩).mpr h0) (iblk m c 0 ⟨n + 1, hn⟩) (iblk m c 1 ⟨n + 1, hn⟩),
       heldStart3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((chunkStart_iff ⟨n + 1, hn⟩).mpr h0) (iblk m c 0 ⟨n + 1, hn⟩) (iblk m c 1 ⟨n + 1, hn⟩),
       heldStart4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((chunkStart_iff ⟨n + 1, hn⟩).mpr h0) (iblk m c 0 ⟨n + 1, hn⟩) (iblk m c 1 ⟨n + 1, hn⟩))
    else
      (heldLater2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((chunkStart_iff ⟨n + 1, hn⟩).mp h)) (iblk m c 0 ⟨n + 1, hn⟩) (iblk m c 1 ⟨n + 1, hn⟩) (heldAt c n (Nat.lt_of_succ_lt hn)),
       heldLater3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((chunkStart_iff ⟨n + 1, hn⟩).mp h)) (iblk m c 0 ⟨n + 1, hn⟩) (iblk m c 1 ⟨n + 1, hn⟩) (heldAt c n (Nat.lt_of_succ_lt hn)),
       heldLater4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((chunkStart_iff ⟨n + 1, hn⟩).mp h)) (iblk m c 0 ⟨n + 1, hn⟩) (iblk m c 1 ⟨n + 1, hn⟩) (heldAt c n (Nat.lt_of_succ_lt hn)))

/-- At a chunk's first substep: the resetting run's contents. -/
theorem heldAt_start (c : Dev nD) (t : Fin cfg0.N) (h0 : t.val % 8 = 0) :
    heldAt m c t.val t.isLt =
      (heldStart2 c (grid0.coords t) (ms0 t) (hs0 t) (ms1 t) (hs1 t) (ms2 t) (hs2 t) (ms3 t) (hs3 t) (ms4 t) (hs4 t) ((chunkStart_iff t).mpr h0) (iblk m c 0 t) (iblk m c 1 t),
       heldStart3 c (grid0.coords t) (ms0 t) (hs0 t) (ms1 t) (hs1 t) (ms2 t) (hs2 t) (ms3 t) (hs3 t) (ms4 t) (hs4 t) ((chunkStart_iff t).mpr h0) (iblk m c 0 t) (iblk m c 1 t),
       heldStart4 c (grid0.coords t) (ms0 t) (hs0 t) (ms1 t) (hs1 t) (ms2 t) (hs2 t) (ms3 t) (hs3 t) (ms4 t) (hs4 t) ((chunkStart_iff t).mpr h0) (iblk m c 0 t) (iblk m c 1 t)) := by
  obtain ⟨n, hn⟩ := t
  cases n with
  | zero => exact rfl
  | succ n => exact (dif_pos h0).trans rfl

/-- At any other substep: the adding run's contents over what the point before left. -/
theorem heldAt_later (c : Dev nD) (t : Fin cfg0.N) (h0 : ¬t.val % 8 = 0) :
    heldAt m c t.val t.isLt =
      (heldLater2 c (grid0.coords t) (ms0 t) (hs0 t) (ms1 t) (hs1 t) (ms2 t) (hs2 t) (ms3 t) (hs3 t) (ms4 t) (hs4 t) (fun h => h0 ((chunkStart_iff t).mp h)) (iblk m c 0 t) (iblk m c 1 t) (heldAt m c (t.val - 1) (Nat.lt_of_le_of_lt (Nat.sub_le _ _) t.isLt)),
       heldLater3 c (grid0.coords t) (ms0 t) (hs0 t) (ms1 t) (hs1 t) (ms2 t) (hs2 t) (ms3 t) (hs3 t) (ms4 t) (hs4 t) (fun h => h0 ((chunkStart_iff t).mp h)) (iblk m c 0 t) (iblk m c 1 t) (heldAt m c (t.val - 1) (Nat.lt_of_le_of_lt (Nat.sub_le _ _) t.isLt)),
       heldLater4 c (grid0.coords t) (ms0 t) (hs0 t) (ms1 t) (hs1 t) (ms2 t) (hs2 t) (ms3 t) (hs3 t) (ms4 t) (hs4 t) (fun h => h0 ((chunkStart_iff t).mp h)) (iblk m c 0 t) (iblk m c 1 t) (heldAt m c (t.val - 1) (Nat.lt_of_le_of_lt (Nat.sub_le _ _) t.isLt))) := by
  obtain ⟨n, hn⟩ := t
  cases n with
  | zero => exact (by exfalso; (try dsimp only at h0); exact absurd (Nat.zero_mod _) h0)
  | succ n => exact (dif_neg h0).trans rfl

/-! ## The proof data -/

/-- On core `c`: the arrays as the region finds them; after the body at point `t` each input's buffer at its block and
    the three accumulators at `heldAt`; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (heldAt m c t.val t.isLt).1
    | ⟨3, _⟩ => (heldAt m c t.val t.isLt).2.1
    | ⟨4, _⟩ => (heldAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (heldAt m c t.val t.isLt).1 := by dsimp only [dats]
theorem after3 (c : Dev nD) (t : Fin cfg0.N) : (dats m 0 c).after 3 t = (heldAt m c t.val t.isLt).2.1 := by dsimp only [dats]
theorem after4 (c : Dev nD) (t : Fin cfg0.N) : (dats m 0 c).after 4 t = (heldAt m c t.val t.isLt).2.2 := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Within a chunk (substep ≠ 0) an accumulator's current staging buffer holds what the body left at the point
    before: that point is not a chunk's last, so the block was not written back in between. -/
theorem before2_later (c : Dev nD) (t : Fin cfg0.N) (h0 : ¬t.val % 8 = 0) (d) :
    (dats m 0 c).before 2 t d = (heldAt m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_later (c : Dev nD) (t : Fin cfg0.N) (h0 : ¬t.val % 8 = 0) (d) :
    (dats m 0 c).before 3 t d = (heldAt m c (t.val - 1) (Nat.lt_of_le_of_lt (Nat.sub_le _ _) t.isLt)).2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
theorem before4_later (c : Dev nD) (t : Fin cfg0.N) (h0 : ¬t.val % 8 = 0) (d) :
    (dats m 0 c).before 4 t d = (heldAt m c (t.val - 1) (Nat.lt_of_le_of_lt (Nat.sub_le _ _) t.isLt)).2.2 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, after4]
  have hN : t.val < 16 := lt_of_lt_of_eq t.isLt (show cfg0.N = 16 from N_0)
  by_cases h0 : t.val % 8 = 0
  · rw [heldAt_start m c t h0]
    dsimp only
    unfold heldStart2 heldStart3 heldStart4
    iintro ⟨HΦ, Ho, ⟨%d0, H0⟩, ⟨%d1, H1⟩, ⟨%d2, H2⟩, ⟨%d3, H3⟩, ⟨%d4, H4⟩⟩
    iapply ((runStart c (grid0.coords t) _ _ _ _ _ _ _ _ _ _ ((chunkStart_iff t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverStart2 c _ _ _ _ _ _ _ _ _ _ _ _ _ _)
    isplitl [H3]
    · unfold owns; iexists _; isplitr
      swap; · iexact H3
      ipureintro; exact View.read_writes_of_cover _ _ _ _ _ (coverStart3 c _ _ _ _ _ _ _ _ _ _ _ _ _ _)
    unfold owns; iexists _; isplitr
    swap; · iexact H4
    ipureintro; exact View.read_writes_of_cover _ _ _ _ _ (coverStart4 c _ _ _ _ _ _ _ _ _ _ _ _ _ _)
  · rw [heldAt_later m c t h0]
    simp only [before2_later m c t h0, before3_later m c t h0, before4_later m c t h0]
    unfold heldLater2 heldLater3 heldLater4
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((chunkStart_iff t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater2 c _ _ _ _ _ _ _ _ _ _ _ _ _ _ _ _ _)
    isplitl [H3]
    · unfold owns; iexists _; isplitr
      swap; · iexact H3
      ipureintro; exact View.read_writes_of_cover _ _ _ _ _ (coverLater3 c _ _ _ _ _ _ _ _ _ _ _ _ _ _ _ _ _)
    unfold owns; iexists _; isplitr
    swap; · iexact H4
    ipureintro; exact View.read_writes_of_cover _ _ _ _ _ (coverLater4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the library computes
    from the proof data, and every other unscoped buffer at what the host lines after the region leave there. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of this program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.IdealRuns.lean ====
/-
  What one run of the body leaves in the three accumulators, as plain terms.  The loop leaves three register sums
  (`regs`: the carried values after the last trip).  At a later substep each accumulator ends at "what it held, plus
  the register sum" (for the third accumulator: plus the sum of two register sums); at a chunk's first substep the
  same with the zero block in place of what it held — the value read back after the zero-fill is the zero block.
-/
import proofs.«156690_j20658792693788_2_alg».proof.Proof.IdealFrame
import Idealize.ShloMosaic.Lib.Pipeline.Value
import Idealize.ShloMosaic.Lib.WholeRead

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

/-- The three register sums the counted loop yields, from the two staged input blocks. -/
abbrev regs (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (x0 x1 : Vec F S8x4x4x128x128 .f32) :
    FVec F S8x4 .f32 × FVec F S8x4 .f32 × FVec F S8x4 .f32 :=
  st_k0_t1 (F := F) Variants.none c none i arg2 harg2 arg3 harg3 arg4 harg4 arg5 harg5 arg6 harg6 (harg2.unread x0) (harg3.unread x1)
    (k0_pay4, k0_pay4, k0_pay4) (Scf.trips (0#32) (Scalar.addi 0#32 4#32) 1#32)

theorem heldLater2_eq (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i) (x0 x1 : Vec F S8x4x4x128x128 .f32) (a : Vec F S1x8x4 .f32 × Vec F S1x8x4 .f32 × Vec F S1x8x4 .f32) :
    heldLater2 c i arg2 harg2 arg3 harg3 arg4 harg4 arg5 harg5 arg6 harg6 hc0 x0 x1 a = k0_pay8 (regs c i arg2 harg2 arg3 harg3 arg4 harg4 arg5 harg5 arg6 harg6 x0 x1).1 a.1 := by
  unfold heldLater2
  rw [View.read_writes_eq_canon _ _ _ (coverLater2 c i arg2 harg2 arg3 harg3 arg4 harg4 arg5 harg5 arg6 harg6 hc0 x0 x1 a.1 a.2.1 a.2.2)]
  unfold runLater
  dsimp only
  rw [View.canon_unit_zero hz3]
  simp only [View.readAt_eq_ld, harg4.read_unread, View.ld_unit_zero (S := S1x8x4) hz3]

theorem heldLater3_eq (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i) (x0 x1 : Vec F S8x4x4x128x128 .f32) (a : Vec F S1x8x4 .f32 × Vec F S1x8x4 .f32 × Vec F S1x8x4 .f32) :
    heldLater3 c i arg2 harg2 arg3 harg3 arg4 harg4 arg5 harg5 arg6 harg6 hc0 x0 x1 a = k0_pay9 (regs c i arg2 harg2 arg3 harg3 arg4 harg4 arg5 harg5 arg6 harg6 x0 x1).2.2 a.2.1 := by
  unfold heldLater3
  rw [View.read_writes_eq_canon _ _ _ (coverLater3 c i arg2 harg2 arg3 harg3 arg4 harg4 arg5 harg5 arg6 harg6 hc0 x0 x1 a.1 a.2.1 a.2.2)]
  unfold runLater
  dsimp only
  rw [View.canon_unit_zero hz3]
  simp only [View.readAt_eq_ld, harg5.read_unread, View.ld_unit_zero (S := S1x8x4) hz3]

theorem heldLater4_eq (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : ¬chunkStart i) (x0 x1 : Vec F S8x4x4x128x128 .f32) (a : Vec F S1x8x4 .f32 × Vec F S1x8x4 .f32 × Vec F S1x8x4 .f32) :
    heldLater4 c i arg2 harg2 arg3 harg3 arg4 harg4 arg5 harg5 arg6 harg6 hc0 x0 x1 a = k0_pay10 (regs c i arg2 harg2 arg3 harg3 arg4 harg4 arg5 harg5 arg6 harg6 x0 x1).1 (regs c i arg2 harg2 arg3 harg3 arg4 harg4 arg5 harg5 arg6 harg6 x0 x1).2.1 a.2.2 := by
  unfold heldLater4
  rw [View.read_writes_eq_canon _ _ _ (coverLater4 c i arg2 harg2 arg3 harg3 arg4 harg4 arg5 harg5 arg6 harg6 hc0 x0 x1 a.1 a.2.1 a.2.2)]
  unfold runLater
  dsimp only
  rw [View.canon_unit_zero hz3]
  simp only [View.readAt_eq_ld, harg6.read_unread, View.ld_unit_zero (S := S1x8x4) hz3]

theorem heldStart2_eq (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i) (x0 x1 : Vec F S8x4x4x128x128 .f32) :
    heldStart2 c i arg2 harg2 arg3 harg3 arg4 harg4 arg5 harg5 arg6 harg6 hc0 x0 x1 = k0_pay8 (regs c i arg2 harg2 arg3 harg3 arg4 harg4 arg5 harg5 arg6 harg6 x0 x1).1 (k0_pay1 (F := F)) := by
  unfold heldStart2
  rw [View.read_writes_eq_canon _ _ _ (coverStart2 c i arg2 harg2 arg3 harg3 arg4 harg4 arg5 harg5 arg6 harg6 hc0 x0 x1)]
  unfold runStart
  dsimp only
  sl_unfold_words
  rw [View.canon_cons_unit_zero (S := S1x8x4) hz3, View.readCov_unit_zero (S := S1x8x4) _ hz3]

theorem heldStart3_eq (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i) (x0 x1 : Vec F S8x4x4x128x128 .f32) :
    heldStart3 c i arg2 harg2 arg3 harg3 arg4 harg4 arg5 harg5 arg6 harg6 hc0 x0 x1 = k0_pay9 (regs c i arg2 harg2 arg3 harg3 arg4 harg4 arg5 harg5 arg6 harg6 x0 x1).2.2 (k0_pay2 (F := F)) := by
  unfold heldStart3
  rw [View.read_writes_eq_canon _ _ _ (coverStart3 c i arg2 harg2 arg3 harg3 arg4 harg4 arg5 harg5 arg6 harg6 hc0 x0 x1)]
  unfold runStart
  dsimp only
  sl_unfold_words
  rw [View.canon_cons_unit_zero (S := S1x8x4) hz3, View.readCov_unit_zero (S := S1x8x4) _ hz3]

theorem heldStart4_eq (c : Dev nD) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (hc0 : chunkStart i) (x0 x1 : Vec F S8x4x4x128x128 .f32) :
    heldStart4 c i arg2 harg2 arg3 harg3 arg4 harg4 arg5 harg5 arg6 harg6 hc0 x0 x1 = k0_pay10 (regs c i arg2 harg2 arg3 harg3 arg4 harg4 arg5 harg5 arg6 harg6 x0 x1).1 (regs c i arg2 harg2 arg3 harg3 arg4 harg4 arg5 harg5 arg6 harg6 x0 x1).2.1 (k0_pay3 (F := F)) := by
  unfold heldStart4
  rw [View.read_writes_eq_canon _ _ _ (coverStart4 c i arg2 harg2 arg3 harg3 arg4 harg4 arg5 harg5 arg6 harg6 hc0 x0 x1)]
  unfold runStart
  dsimp only
  sl_unfold_words
  rw [View.canon_cons_unit_zero (S := S1x8x4) hz3, View.readCov_unit_zero (S := S1x8x4) _ hz3]

end Cert.KernelIdeal.Body

end
-- ==== Proof.DiceSums.lean ====
/-
  The mathematics of the dice-loss partial sums, over the extended reals, free of any program.

  For an array x : [8,4,64,128,128] write plane x b c d for the sum of its depth plane d at (b, c):
  ∑ₕ ∑_w x[b,c,d,h,w].  The reference sums a whole volume at once, ∑_{d<64} plane x b c d.  The kernel walks the 64
  planes as 2 chunks × 8 substeps × 4 loop trips — plane 32·ch + 4·sub + k at chunk ch, substep sub, trip k —
  adding each plane onto a register accumulator that starts at 0, each substep's register onto a block accumulator
  that starts at 0, and finally the two chunks' blocks onto 0.  Addition of extended reals is commutative and
  associative (they form an additive commutative monoid), so every such nesting of partial sums is the one sum over
  all 64 planes; nothing here needs the summands to be finite.  For the third output the kernel adds the plane sums of
  the two inputs where the reference sums the planes of their elementwise sum: the same by distributing ∑ over +.
-/
import Idealize.ShloMosaic.PureOps.Ideal
import Idealize.ShloMosaic.Lib.ValueIdx

noncomputable section

namespace DiceSums

open Idealize.ShloMosaic Idealize.ShloMosaic.ValueIdx

/-- The volume shape, and the index of one element by its five coordinates. -/
abbrev Vol : Shape := ⟨5, ![8, 4, 64, 128, 128]⟩

/-- The sum of depth plane `d` of `x` at batch `b`, class `c`; zero past the last plane. -/
def plane (x : Vol.Idx → EReal) (b : Fin 8) (c : Fin 4) (d : ℕ) : EReal :=
  if h : d < 64 then ∑ y : Fin 128, ∑ z : Fin 128, x (ix5 b c ⟨d, h⟩ y z) else 0

theorem plane_of_lt (x : Vol.Idx → EReal) (b : Fin 8) (c : Fin 4) (d : Fin 64) :
    plane x b c d.val = ∑ y : Fin 128, ∑ z : Fin 128, x (ix5 b c d y z) := by
  unfold plane; rw [dif_pos d.isLt]

/-- The reference's reduction: all 64 planes. -/
def volume (x : Vol.Idx → EReal) (b : Fin 8) (c : Fin 4) : EReal := ∑ d ∈ Finset.range 64, plane x b c d

/-! ## Accumulating from a start value, one term at a time -/

section Chain
variable {M : Type*} [AddCommMonoid M]

/-- `z`, then `+ g 0`, then `+ g 1`, …: `n` terms added onto `z` in order. -/
def chain (z : M) (g : ℕ → M) : ℕ → M
  | 0 => z
  | n + 1 => chain z g n + g n

theorem chain_eq_sum (z : M) (g : ℕ → M) (n : ℕ) : chain z g n = z + ∑ k ∈ Finset.range n, g k := by
  induction n with
  | zero => simp [chain]
  | succ n ih => rw [chain, ih, Finset.sum_range_succ, add_assoc]

theorem chain_succ (z : M) (g : ℕ → M) (n : ℕ) : chain z g (n + 1) = chain z g n + g n := rfl

/-- Only the terms actually added matter. -/
theorem chain_congr (z : M) {g g' : ℕ → M} (n : ℕ) (h : ∀ k < n, g k = g' k) : chain z g n = chain z g' n := by
  induction n with
  | zero => rfl
  | succ n ih => rw [chain_succ, chain_succ, ih (fun k hk => h k (Nat.lt_succ_of_lt hk)), h n (Nat.lt_succ_self n)]

/-- A sum over `A·B` consecutive terms, cut into `A` runs of `B`. -/
theorem sum_range_mul (f : ℕ → M) (A B : ℕ) :
    ∑ n ∈ Finset.range (A * B), f n = ∑ a ∈ Finset.range A, ∑ b ∈ Finset.range B, f (a * B + b) := by
  induction A with
  | zero => simp
  | succ A ih => rw [Nat.succ_mul, Finset.sum_range_add, ih, Finset.sum_range_succ]

end Chain

/-! ## The kernel's nesting is the volume sum -/

/-- What one grid point (chunk-major number `t`) adds: the four planes `4t, …, 4t+3` onto a zero register. -/
def pointSum (x : Vol.Idx → EReal) (b : Fin 8) (c : Fin 4) (t : ℕ) : EReal :=
  chain 0 (fun k => plane x b c (4 * t + k)) 4

/-- What chunk `ch`'s block accumulator holds after its substeps `0 … n-1`, from zero. -/
def chunkAcc (g : ℕ → EReal) (ch n : ℕ) : EReal := chain 0 (fun s => g (8 * ch + s)) n

/-- The two chunks' finished blocks added onto zero. -/
def twoChunks (g : ℕ → EReal) : EReal := 0 + ∑ ch ∈ Finset.range 2, chunkAcc g ch 8

/-- A chunk's first substep: zero, plus that point's term. -/
theorem chunkAcc_first (g : ℕ → EReal) (n : ℕ) (h : n % 8 = 0) : chunkAcc g (n / 8) (n % 8 + 1) = 0 + g n := by
  unfold chunkAcc
  rw [h, chain_succ]
  show 0 + g (8 * (n / 8) + 0) = 0 + g n
  rw [show 8 * (n / 8) + 0 = n by omega]

/-- A later substep: what the substep before left, plus this point's term. -/
theorem chunkAcc_next (g : ℕ → EReal) (n : ℕ) (h : n % 8 ≠ 0) :
    chunkAcc g (n / 8) (n % 8 + 1) = chunkAcc g ((n - 1) / 8) ((n - 1) % 8 + 1) + g n := by
  unfold chunkAcc
  rw [chain_succ, show (n - 1) / 8 = n / 8 by omega, show (n - 1) % 8 + 1 = n % 8 by omega,
    show 8 * (n / 8) + n % 8 = n by omega]

theorem pointSum_eq (x : Vol.Idx → EReal) (b : Fin 8) (c : Fin 4) (t : ℕ) :
    pointSum x b c t = ∑ k ∈ Finset.range 4, plane x b c (t * 4 + k) := by
  unfold pointSum; rw [chain_eq_sum, zero_add, Nat.mul_comm]

theorem twoChunks_eq (g : ℕ → EReal) : twoChunks g = ∑ t ∈ Finset.range 16, g t := by
  unfold twoChunks chunkAcc
  rw [zero_add, show (16 : ℕ) = 2 * 8 from rfl, sum_range_mul]
  refine Finset.sum_congr rfl fun ch _ => ?_
  rw [chain_eq_sum, zero_add, Nat.mul_comm]

/-- Chunks × substeps × trips walk every plane once. -/
theorem twoChunks_pointSum (x : Vol.Idx → EReal) (b : Fin 8) (c : Fin 4) :
    twoChunks (pointSum x b c) = 0 + volume x b c := by
  rw [twoChunks_eq, zero_add]
  unfold volume
  rw [show (64 : ℕ) = 16 * 4 from rfl, sum_range_mul]
  exact Finset.sum_congr rfl fun t _ => pointSum_eq x b c t

/-- A plane of an elementwise sum is the sum of the planes. -/
theorem plane_add (x y : Vol.Idx → EReal) (b : Fin 8) (c : Fin 4) (d : ℕ) :
    plane (fun i => x i + y i) b c d = plane x b c d + plane y b c d := by
  unfold plane
  by_cases h : d < 64
  · simp only [dif_pos h, Finset.sum_add_distrib]
  · simp only [dif_neg h, add_zero]

/-- The third output: the kernel adds, per grid point, the register sum of the first input's planes and that of the
    second's; the reference sums the planes of `x + y`. -/
theorem twoChunks_pointSum_add (x y : Vol.Idx → EReal) (b : Fin 8) (c : Fin 4) :
    twoChunks (fun t => pointSum x b c t + pointSum y b c t) = 0 + volume (fun i => x i + y i) b c := by
  rw [twoChunks_eq, zero_add, Finset.sum_add_distrib]
  have hx := twoChunks_pointSum x b c
  have hy := twoChunks_pointSum y b c
  rw [twoChunks_eq, zero_add] at hx hy
  rw [hx, hy]
  unfold volume
  rw [← Finset.sum_add_distrib]
  exact Finset.sum_congr rfl fun d _ => (plane_add x y b c d).symm

end DiceSums

end
-- ==== Proof.IdealRegs.lean ====
/-
  The counted loop's register sums at the extended reals, index by index.  Trip k loads depth slice k of each staged
  input block, sums it over its width, then its height, then its (unit) depth axis, and adds the result onto the
  carried register; the third register carries the same sums of the elementwise product of the two slices.  So after
  n trips a register holds, at (b, c), its start value with the plane sums of slices 0 … n-1 added on in order.
-/
import proofs.«156690_j20658792693788_2_alg».proof.Proof.IdealRuns
import proofs.«156690_j20658792693788_2_alg».proof.Proof.DiceSums
import Idealize.ShloMosaic.PureOps.Ideal.Laws
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx DiceSums

/-- The sum of depth slice `k` of a staged block at batch `b`, class `c`; zero past the block's four slices. -/
def slicePlane (x : S8x4x4x128x128.Idx → EReal) (b : Fin 8) (c : Fin 4) (k : ℕ) : EReal :=
  if h : k < 4 then ∑ y : Fin 128, ∑ z : Fin 128, x (ix5 b c ⟨k, h⟩ y z) else 0

/-- Three lane sums in a row — over the width, the height, the unit depth axis — read at (b, c). -/
theorem sum3 (h4 : S8x4x1x128x128.Reduces [4] S8x4x1x128) (h3 : S8x4x1x128.Reduces [3] S8x4x1) (h2 : S8x4x1.Reduces [2] S8x4)
    (hφ : FKind.Formats .f32) (hacc : (0x00000000#32 : BitVec 32) = FKind.add.neutral .f32 hφ)
    (v : FVec Ideal S8x4x1x128x128 .f32) (b : Fin 8) (c : Fin 4) :
    multiReduction .add [2] S8x4 (multiReduction .add [3] S8x4x1 (multiReduction .add [4] S8x4x1x128 v 0x00000000#32 h4 hφ hacc) 0x00000000#32 h3 hφ hacc) 0x00000000#32 h2 hφ hacc (ix2 b c)
      = ∑ y : Fin 128, ∑ z : Fin 128, v (ix5 b c (0 : Fin 1) y z) := by
  refine (Ideal.multiReduction_add_single _ _ h2 hφ hacc (ix2 b c)).trans ?_
  show ∑ u : Fin 1, _ = _
  rw [Fin.sum_univ_one]
  have e2 : h2.lift (ix2 b c) (0 : Fin 1) = ix3 b c (0 : Fin 1) := by
    funext a; apply Fin.ext
    match a with
    | ⟨0, _⟩ => rfl
    | ⟨1, _⟩ => rfl
    | ⟨2, _⟩ => rfl
  refine (congrArg _ e2).trans ?_
  refine (Ideal.multiReduction_add_single _ _ h3 hφ hacc (ix3 b c (0 : Fin 1))).trans ?_
  show ∑ y : Fin 128, _ = _
  refine Finset.sum_congr rfl fun y _ => ?_
  have e3 : h3.lift (ix3 b c (0 : Fin 1)) y = ix4 b c (0 : Fin 1) y := by
    funext a; apply Fin.ext
    match a with
    | ⟨0, _⟩ => rfl
    | ⟨1, _⟩ => rfl
    | ⟨2, _⟩ => rfl
    | ⟨3, _⟩ => rfl
  refine (congrArg _ e3).trans ?_
  refine (Ideal.multiReduction_add_single _ _ h4 hφ hacc (ix4 b c (0 : Fin 1) y)).trans ?_
  show ∑ z : Fin 128, _ = _
  refine Finset.sum_congr rfl fun z _ => ?_
  have e4 : h4.lift (ix4 b c (0 : Fin 1) y) z = ix5 b c (0 : Fin 1) y z := by
    funext a; apply Fin.ext
    match a with
    | ⟨0, _⟩ => rfl
    | ⟨1, _⟩ => rfl
    | ⟨2, _⟩ => rfl
    | ⟨3, _⟩ => rfl
    | ⟨4, _⟩ => rfl
  exact congrArg v e4

/-- One trip's load: depth slice `k` of the staged block, element by element. -/
theorem slice_apply (arg : Memref sig .tc .vmem S8x4x4x128x128 .f32) (harg : arg.IsWhole) (x : Vec Ideal S8x4x4x128x128 .f32)
    (k : Fin k0_t1_loop.trips) (hk : k.val < 4) (b : Fin 8) (c : Fin 4) (y z : Fin 128) :
    View.readAt (Elt Ideal) arg.view (Rect.unit (s := S8x4x4x128x128) (k0_off1 k) S8x4x1x128x128.size (k0_off1_inb k)).toLoadRect (harg.unread x) (ix5 b c (0 : Fin 1) y z)
      = x (ix5 b c ⟨k.val, hk⟩ y z) := by
  refine (harg.readAt_unread (Val := Elt Ideal) x _ _).trans ?_
  refine congrArg x ?_
  funext a; apply Fin.ext
  have e := k0_off1_eq k
  have e0 : k0_off1 k (0 : Fin 5) = 0 := (congrFun e 0).trans rfl
  have e1 : k0_off1 k (1 : Fin 5) = 0 := (congrFun e 1).trans rfl
  have e2 : k0_off1 k (2 : Fin 5) = k.val := (congrFun e 2).trans rfl
  have e3 : k0_off1 k (3 : Fin 5) = 0 := (congrFun e 3).trans rfl
  have e4 : k0_off1 k (4 : Fin 5) = 0 := (congrFun e 4).trans rfl
  match a with
  | ⟨0, _⟩ => show k0_off1 k (0 : Fin 5) + 1 * b.val = b.val; omega
  | ⟨1, _⟩ => show k0_off1 k (1 : Fin 5) + 1 * c.val = c.val; omega
  | ⟨2, _⟩ => show k0_off1 k (2 : Fin 5) + 1 * 0 = k.val; omega
  | ⟨3, _⟩ => show k0_off1 k (3 : Fin 5) + 1 * y.val = y.val; omega
  | ⟨4, _⟩ => show k0_off1 k (4 : Fin 5) + 1 * z.val = z.val; omega

/-- So the plane sum of that load is the block's slice plane. -/
theorem slice_plane (arg : Memref sig .tc .vmem S8x4x4x128x128 .f32) (harg : arg.IsWhole) (x : Vec Ideal S8x4x4x128x128 .f32)
    (k : Fin k0_t1_loop.trips) (hk : k.val < 4) (b : Fin 8) (c : Fin 4) :
    (∑ y : Fin 128, ∑ z : Fin 128, View.readAt (Elt Ideal) arg.view (Rect.unit (s := S8x4x4x128x128) (k0_off1 k) S8x4x1x128x128.size (k0_off1_inb k)).toLoadRect (harg.unread x) (ix5 b c (0 : Fin 1) y z))
      = slicePlane x b c k.val := by
  unfold slicePlane
  rw [dif_pos hk]
  exact Finset.sum_congr rfl fun y _ => Finset.sum_congr rfl fun z _ => slice_apply arg harg x k hk b c y z

/-- The trip's three yields, read at (b, c): the carried value plus the slice's plane sum. -/
theorem pay5_apply (acc : FVec Ideal S8x4 .f32) (v : Vec Ideal S8x4x1x128x128 .f32) (b : Fin 8) (c : Fin 4) :
    k0_pay5 acc v (ix2 b c) = acc (ix2 b c) + ∑ y : Fin 128, ∑ z : Fin 128, v (ix5 b c (0 : Fin 1) y z) := by
  unfold k0_pay5
  exact congrArg (acc (ix2 b c) + ·) (sum3 _ _ _ _ _ v b c)
theorem pay6_apply (acc : FVec Ideal S8x4 .f32) (v : Vec Ideal S8x4x1x128x128 .f32) (b : Fin 8) (c : Fin 4) :
    k0_pay6 acc v (ix2 b c) = acc (ix2 b c) + ∑ y : Fin 128, ∑ z : Fin 128, v (ix5 b c (0 : Fin 1) y z) := by
  unfold k0_pay6
  exact congrArg (acc (ix2 b c) + ·) (sum3 _ _ _ _ _ v b c)
theorem pay7_apply (acc : FVec Ideal S8x4 .f32) (v w : Vec Ideal S8x4x1x128x128 .f32) (b : Fin 8) (c : Fin 4) :
    k0_pay7 acc v w (ix2 b c) = acc (ix2 b c) + ∑ y : Fin 128, ∑ z : Fin 128, v (ix5 b c (0 : Fin 1) y z) * w (ix5 b c (0 : Fin 1) y z) := by
  unfold k0_pay7
  exact congrArg (acc (ix2 b c) + ·) (sum3 _ _ _ _ _ (mulf v w) b c)

/-- One trip's result, as the run found it: the three yields over the two slice loads. -/
theorem tripR_eq (𝒱 : Variants) (c : Dev nD) (bd : Option 𝒱.V) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole)
    (X2 : BufTy.Contents (Elt F) arg2.view.ty) (X3 : BufTy.Contents (Elt F) arg3.view.ty) (k : Fin k0_t1_loop.trips)
    (acc : FVec F S8x4 .f32 × FVec F S8x4 .f32 × FVec F S8x4 .f32) :
    tripR_k0_t1 (F := F) 𝒱 c bd i arg2 harg2 arg3 harg3 arg4 harg4 arg5 harg5 arg6 harg6 X2 X3 k acc =
      (k0_pay5 acc.1 (View.readAt (Elt F) arg3.view (Rect.unit (s := S8x4x4x128x128) (k0_off1 k) S8x4x1x128x128.size (k0_off1_inb k)).toLoadRect X3),
       k0_pay6 acc.2.1 (View.readAt (Elt F) arg2.view (Rect.unit (s := S8x4x4x128x128) (k0_off1 k) S8x4x1x128x128.size (k0_off1_inb k)).toLoadRect X2),
       k0_pay7 acc.2.2 (View.readAt (Elt F) arg2.view (Rect.unit (s := S8x4x4x128x128) (k0_off1 k) S8x4x1x128x128.size (k0_off1_inb k)).toLoadRect X2)
         (View.readAt (Elt F) arg3.view (Rect.unit (s := S8x4x4x128x128) (k0_off1 k) S8x4x1x128x128.size (k0_off1_inb k)).toLoadRect X3)) := by
  unfold tripR_k0_t1 trip_k0_t1
  rfl

theorem loop_trips : k0_t1_loop.trips = 4 := by decide

/-- After `n` trips each register holds, at (b, c), its start value with the slice planes 0 … n-1 added on in order:
    the second input's, the first input's, and their product's. -/
theorem regs_apply (𝒱 : Variants) (c : Dev nD) (bd : Option 𝒱.V) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole)
    (x0 x1 : Vec Ideal S8x4x4x128x128 .f32) (init : FVec Ideal S8x4 .f32 × FVec Ideal S8x4 .f32 × FVec Ideal S8x4 .f32)
    (b : Fin 8) (cc : Fin 4) : ∀ n : ℕ, n ≤ 4 →
      (st_k0_t1 (F := Ideal) 𝒱 c bd i arg2 harg2 arg3 harg3 arg4 harg4 arg5 harg5 arg6 harg6 (harg2.unread x0) (harg3.unread x1) init n).1 (ix2 b cc) = chain (init.1 (ix2 b cc)) (slicePlane x1 b cc) n
      ∧ (st_k0_t1 (F := Ideal) 𝒱 c bd i arg2 harg2 arg3 harg3 arg4 harg4 arg5 harg5 arg6 harg6 (harg2.unread x0) (harg3.unread x1) init n).2.1 (ix2 b cc) = chain (init.2.1 (ix2 b cc)) (slicePlane x0 b cc) n
      ∧ (st_k0_t1 (F := Ideal) 𝒱 c bd i arg2 harg2 arg3 harg3 arg4 harg4 arg5 harg5 arg6 harg6 (harg2.unread x0) (harg3.unread x1) init n).2.2 (ix2 b cc) = chain (init.2.2 (ix2 b cc)) (slicePlane (fun j => x0 j * x1 j) b cc) n
  | 0, _ => ⟨rfl, rfl, rfl⟩
  | n + 1, hn => by
    have hk : n < k0_t1_loop.trips := by rw [loop_trips]; omega
    have hn4 : n < 4 := Nat.lt_of_succ_le hn
    obtain ⟨h1, h2, h3⟩ := regs_apply 𝒱 c bd i arg2 harg2 arg3 harg3 arg4 harg4 arg5 harg5 arg6 harg6 x0 x1 init b cc n (by omega)
    have hs := st_k0_t1_succ (F := Ideal) 𝒱 c bd i arg2 harg2 arg3 harg3 arg4 harg4 arg5 harg5 arg6 harg6 (harg2.unread x0) (harg3.unread x1) init ⟨n, hk⟩
    have hs' : (st_k0_t1 (F := Ideal) 𝒱 c bd i arg2 harg2 arg3 harg3 arg4 harg4 arg5 harg5 arg6 harg6 (harg2.unread x0) (harg3.unread x1) init (n + 1)) = _ := hs
    rw [hs', tripR_eq]
    refine ⟨?_, ?_, ?_⟩
    · refine (pay5_apply _ _ b cc).trans ?_
      rw [h1, slice_plane arg3 harg3 x1 ⟨n, hk⟩ hn4 b cc]
      rfl
    · refine (pay6_apply _ _ b cc).trans ?_
      rw [h2, slice_plane arg2 harg2 x0 ⟨n, hk⟩ hn4 b cc]
      rfl
    · refine (pay7_apply _ _ _ b cc).trans ?_
      rw [h3]
      have e : (∑ y : Fin 128, ∑ z : Fin 128,
          View.readAt (Elt Ideal) arg2.view (Rect.unit (s := S8x4x4x128x128) (k0_off1 ⟨n, hk⟩) S8x4x1x128x128.size (k0_off1_inb ⟨n, hk⟩)).toLoadRect (harg2.unread x0) (ix5 b cc (0 : Fin 1) y z)
            * View.readAt (Elt Ideal) arg3.view (Rect.unit (s := S8x4x4x128x128) (k0_off1 ⟨n, hk⟩) S8x4x1x128x128.size (k0_off1_inb ⟨n, hk⟩)).toLoadRect (harg3.unread x1) (ix5 b cc (0 : Fin 1) y z))
          = slicePlane (fun j => x0 j * x1 j) b cc n := by
        unfold slicePlane
        rw [dif_pos hn4]
        exact Finset.sum_congr rfl fun y _ => Finset.sum_congr rfl fun z _ => by
          rw [slice_apply arg2 harg2 x0 ⟨n, hk⟩ hn4 b cc y z, slice_apply arg3 harg3 x1 ⟨n, hk⟩ hn4 b cc y z]
      rw [e]
      rfl

end Cert.KernelIdeal.Body

end
-- ==== Proof.IdealHeld.lean ====
/-
  The accumulators, point by point, as sums of depth planes of the two argument arrays.

  The block of an input that grid point t stages is depths 4t … 4t+3 of the array, so the loop's register sums at
  point t are the sums of those four planes added onto zero: for the second argument (the masks), the first (the
  outputs), and their elementwise product.  Zero-fill-then-add at a chunk's first substep and add-onto-what-was-left
  at the others then make each accumulator, after point n, the running sum of its chunk's points up to n, started
  from zero; the third accumulator adds, per point, the first argument's register sum and the second's.
-/
import proofs.«156690_j20658792693788_2_alg».proof.Proof.IdealRegs
import Idealize.ShloMosaic.Lib.ValueLayout

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx DiceSums

variable (m : (ℓ : Loc nD τ sig) → Buf (Elt Ideal) ℓ)

/-- The two argument arrays as the region finds them, and the blocks of them a grid point stages. -/
abbrev outsArr (c : Dev nD) : Vol.Idx → EReal := V m c main_arg0
abbrev masksArr (c : Dev nD) : Vol.Idx → EReal := V m c main_arg1
abbrev outsBlk (c : Dev nD) (t : Fin cfg0.N) : Vec Ideal S8x4x4x128x128 .f32 := iblk m c 0 t
abbrev masksBlk (c : Dev nD) (t : Fin cfg0.N) : Vec Ideal S8x4x4x128x128 .f32 := iblk m c 1 t

/-! ## A staged block is four consecutive depth planes of its array -/

theorem blockIndex0 : ∀ t : Fin cfg0.N, win0_0.index t 0 = 0 ∧ win0_0.index t 1 = 0 ∧ win0_0.index t 2 = t.val ∧ win0_0.index t 3 = 0 ∧ win0_0.index t 4 = 0 :=
  (by decide +kernel : ∀ t : Fin grid0.N, win0_0.index t 0 = 0 ∧ win0_0.index t 1 = 0 ∧ win0_0.index t 2 = t.val ∧ win0_0.index t 3 = 0 ∧ win0_0.index t 4 = 0)
theorem blockIndex1 : ∀ t : Fin cfg0.N, win0_1.index t 0 = 0 ∧ win0_1.index t 1 = 0 ∧ win0_1.index t 2 = t.val ∧ win0_1.index t 3 = 0 ∧ win0_1.index t 4 = 0 :=
  (by decide +kernel : ∀ t : Fin grid0.N, win0_1.index t 0 = 0 ∧ win0_1.index t 1 = 0 ∧ win0_1.index t 2 = t.val ∧ win0_1.index t 3 = 0 ∧ win0_1.index t 4 = 0)

theorem blk0_apply (c : Dev nD) (t : Fin cfg0.N) (b : Fin 8) (cc : Fin 4) (k : Fin 4) (y z : Fin 128) (h : 4 * t.val + k.val < 64) :
    iblk (F := Ideal) m c 0 t (ix5 b cc k y z) = V m c main_arg0 (ix5 b cc ⟨4 * t.val + k.val, h⟩ y z) := by
  show V m c main_arg0 (((cfg0.win 0).blk t).view.emb (ix5 b cc k y z)) = _
  refine congrArg _ ?_
  funext a; apply Fin.ext
  obtain ⟨i0, i1, i2, i3, i4⟩ := blockIndex0 t
  match a with
  | ⟨0, _⟩ => show win0_0.index t 0 * 8 + 1 * b.val = b.val; rw [i0]; omega
  | ⟨1, _⟩ => show win0_0.index t 1 * 4 + 1 * cc.val = cc.val; rw [i1]; omega
  | ⟨2, _⟩ => show win0_0.index t 2 * 4 + 1 * k.val = 4 * t.val + k.val; rw [i2]; omega
  | ⟨3, _⟩ => show win0_0.index t 3 * 128 + 1 * y.val = y.val; rw [i3]; omega
  | ⟨4, _⟩ => show win0_0.index t 4 * 128 + 1 * z.val = z.val; rw [i4]; omega
theorem blk1_apply (c : Dev nD) (t : Fin cfg0.N) (b : Fin 8) (cc : Fin 4) (k : Fin 4) (y z : Fin 128) (h : 4 * t.val + k.val < 64) :
    iblk (F := Ideal) m c 1 t (ix5 b cc k y z) = V m c main_arg1 (ix5 b cc ⟨4 * t.val + k.val, h⟩ y z) := by
  show V m c main_arg1 (((cfg0.win 1).blk t).view.emb (ix5 b cc k y z)) = _
  refine congrArg _ ?_
  funext a; apply Fin.ext
  obtain ⟨i0, i1, i2, i3, i4⟩ := blockIndex1 t
  match a with
  | ⟨0, _⟩ => show win0_1.index t 0 * 8 + 1 * b.val = b.val; rw [i0]; omega
  | ⟨1, _⟩ => show win0_1.index t 1 * 4 + 1 * cc.val = cc.val; rw [i1]; omega
  | ⟨2, _⟩ => show win0_1.index t 2 * 4 + 1 * k.val = 4 * t.val + k.val; rw [i2]; omega
  | ⟨3, _⟩ => show win0_1.index t 3 * 128 + 1 * y.val = y.val; rw [i3]; omega
  | ⟨4, _⟩ => show win0_1.index t 4 * 128 + 1 * z.val = z.val; rw [i4]; omega

theorem point_lt (t : Fin cfg0.N) (k : ℕ) (hk : k < 4) : 4 * t.val + k < 64 := by
  have hN : t.val < 16 := lt_of_lt_of_eq t.isLt (show cfg0.N = 16 from N_0)
  omega

theorem slicePlane0 (c : Dev nD) (t : Fin cfg0.N) (b : Fin 8) (cc : Fin 4) (k : ℕ) (hk : k < 4) :
    slicePlane (iblk (F := Ideal) m c 0 t) b cc k = plane (V m c main_arg0) b cc (4 * t.val + k) := by
  unfold slicePlane plane
  rw [dif_pos hk, dif_pos (point_lt t k hk)]
  exact Finset.sum_congr rfl fun y _ => Finset.sum_congr rfl fun z _ => blk0_apply m c t b cc ⟨k, hk⟩ y z (point_lt t k hk)
theorem slicePlane1 (c : Dev nD) (t : Fin cfg0.N) (b : Fin 8) (cc : Fin 4) (k : ℕ) (hk : k < 4) :
    slicePlane (iblk (F := Ideal) m c 1 t) b cc k = plane (V m c main_arg1) b cc (4 * t.val + k) := by
  unfold slicePlane plane
  rw [dif_pos hk, dif_pos (point_lt t k hk)]
  exact Finset.sum_congr rfl fun y _ => Finset.sum_congr rfl fun z _ => blk1_apply m c t b cc ⟨k, hk⟩ y z (point_lt t k hk)
theorem slicePlaneMul (c : Dev nD) (t : Fin cfg0.N) (b : Fin 8) (cc : Fin 4) (k : ℕ) (hk : k < 4) :
    slicePlane (fun j => outsBlk m c t j * masksBlk m c t j) b cc k
      = plane (fun i => outsArr m c i * masksArr m c i) b cc (4 * t.val + k) := by
  unfold slicePlane plane
  rw [dif_pos hk, dif_pos (point_lt t k hk)]
  exact Finset.sum_congr rfl fun y _ => Finset.sum_congr rfl fun z _ =>
    congrArg₂ (· * ·) (blk0_apply m c t b cc ⟨k, hk⟩ y z (point_lt t k hk)) (blk1_apply m c t b cc ⟨k, hk⟩ y z (point_lt t k hk))

/-! ## The register sums at a point -/

theorem trips4 : Scf.trips (0#32) (Scalar.addi 0#32 4#32) 1#32 = 4 := by decide

theorem zeroReg (j : S8x4.Idx) : (k0_pay4 (F := Ideal)) j = 0 := Ideal.ofBits_zero_f32

/-- At point `t` the three registers end at the point's plane sums of the masks, of the outputs, and of their product. -/
theorem regs_point (c : Dev nD) (t : Fin cfg0.N) (i : grid0.Coords) (arg2 : Memref sig .tc .vmem S8x4x4x128x128 .f32) (harg2 : arg2.IsWhole) (arg3 : Memref sig .tc .vmem S8x4x4x128x128 .f32) (harg3 : arg3.IsWhole) (arg4 : Memref sig .tc .vmem S1x8x4 .f32) (harg4 : arg4.IsWhole) (arg5 : Memref sig .tc .vmem S1x8x4 .f32) (harg5 : arg5.IsWhole) (arg6 : Memref sig .tc .vmem S1x8x4 .f32) (harg6 : arg6.IsWhole) (b : Fin 8) (cc : Fin 4) :
    (regs (F := Ideal) c i arg2 harg2 arg3 harg3 arg4 harg4 arg5 harg5 arg6 harg6 (iblk m c 0 t) (iblk m c 1 t)).1 (ix2 b cc) = pointSum (V m c main_arg1) b cc t.val
    ∧ (regs (F := Ideal) c i arg2 harg2 arg3 harg3 arg4 harg4 arg5 harg5 arg6 harg6 (iblk m c 0 t) (iblk m c 1 t)).2.1 (ix2 b cc) = pointSum (V m c main_arg0) b cc t.val
    ∧ (regs (F := Ideal) c i arg2 harg2 arg3 harg3 arg4 harg4 arg5 harg5 arg6 harg6 (iblk m c 0 t) (iblk m c 1 t)).2.2 (ix2 b cc)
        = pointSum (fun j => outsArr m c j * masksArr m c j) b cc t.val := by
  unfold regs
  rw [trips4]
  obtain ⟨h1, h2, h3⟩ := regs_apply Variants.none c none i arg2 harg2 arg3 harg3 arg4 harg4 arg5 harg5 arg6 harg6 (iblk m c 0 t) (iblk m c 1 t)
    (k0_pay4 (F := Ideal), k0_pay4 (F := Ideal), k0_pay4 (F := Ideal)) b cc 4 (le_refl 4)
  refine ⟨h1.trans ?_, h2.trans ?_, h3.trans ?_⟩
  · unfold pointSum
    dsimp only
    rw [zeroReg]
    exact chain_congr 0 4 fun k hk => slicePlane1 m c t b cc k hk
  · unfold pointSum
    dsimp only
    rw [zeroReg]
    exact chain_congr 0 4 fun k hk => slicePlane0 m c t b cc k hk
  · unfold pointSum
    dsimp only
    rw [zeroReg]
    exact chain_congr 0 4 fun k hk => slicePlaneMul m c t b cc k hk

/-! ## The accumulator stores, read at an index -/

theorem pay8_apply (r : FVec Ideal S8x4 .f32) (a : Vec Ideal S1x8x4 .f32) (u : Fin 1) (b : Fin 8) (cc : Fin 4) :
    k0_pay8 r a (ix3 u b cc) = a (ix3 (0 : Fin 1) b cc) + r (ix2 b cc) := by
  unfold k0_pay8
  refine (shapeCast_ab_1ab_apply _ _ u b cc).trans ?_
  exact congrArg (· + r (ix2 b cc)) (shapeCast_1ab_ab_apply a _ b cc)
theorem pay9_apply (r : FVec Ideal S8x4 .f32) (a : Vec Ideal S1x8x4 .f32) (u : Fin 1) (b : Fin 8) (cc : Fin 4) :
    k0_pay9 r a (ix3 u b cc) = a (ix3 (0 : Fin 1) b cc) + r (ix2 b cc) := by
  unfold k0_pay9
  refine (shapeCast_ab_1ab_apply _ _ u b cc).trans ?_
  exact congrArg (· + r (ix2 b cc)) (shapeCast_1ab_ab_apply a _ b cc)
theorem pay10_apply (r0 r1 : FVec Ideal S8x4 .f32) (a : Vec Ideal S1x8x4 .f32) (u : Fin 1) (b : Fin 8) (cc : Fin 4) :
    k0_pay10 r0 r1 a (ix3 u b cc) = a (ix3 (0 : Fin 1) b cc) + (r1 (ix2 b cc) + r0 (ix2 b cc)) := by
  unfold k0_pay10
  refine (shapeCast_ab_1ab_apply _ _ u b cc).trans ?_
  exact congrArg (· + (r1 (ix2 b cc) + r0 (ix2 b cc))) (shapeCast_1ab_ab_apply a _ b cc)

theorem zeroBlock1 (u : Fin 1) (b : Fin 8) (cc : Fin 4) : (k0_pay1 (F := Ideal)) (ix3 u b cc) = 0 := by
  unfold k0_pay1
  exact (shapeCast_ab_1ab_apply _ _ u b cc).trans Ideal.ofBits_zero_f32
theorem zeroBlock2 (u : Fin 1) (b : Fin 8) (cc : Fin 4) : (k0_pay2 (F := Ideal)) (ix3 u b cc) = 0 := by
  unfold k0_pay2
  exact (shapeCast_ab_1ab_apply _ _ u b cc).trans Ideal.ofBits_zero_f32
theorem zeroBlock3 (u : Fin 1) (b : Fin 8) (cc : Fin 4) : (k0_pay3 (F := Ideal)) (ix3 u b cc) = 0 := by
  unfold k0_pay3
  exact (shapeCast_ab_1ab_apply _ _ u b cc).trans Ideal.ofBits_zero_f32

/-! ## The accumulators after each point -/

/-- The per-point terms the three accumulators add. -/
abbrev maskTerm (c : Dev nD) (b : Fin 8) (cc : Fin 4) : ℕ → EReal := pointSum (V m c main_arg1) b cc
abbrev interTerm (c : Dev nD) (b : Fin 8) (cc : Fin 4) : ℕ → EReal := pointSum (fun j => outsArr m c j * masksArr m c j) b cc
abbrev totalTerm (c : Dev nD) (b : Fin 8) (cc : Fin 4) : ℕ → EReal :=
  fun t => pointSum (V m c main_arg0) b cc t + pointSum (V m c main_arg1) b cc t

/-- After point `n`: each accumulator is its chunk's running sum, from zero, of the points up to `n`. -/
theorem heldAt_apply (c : Dev nD) (b : Fin 8) (cc : Fin 4) : ∀ (n : ℕ) (hn : n < cfg0.N),
    (heldAt m c n hn).1 (ix3 (0 : Fin 1) b cc) = chunkAcc (maskTerm m c b cc) (n / 8) (n % 8 + 1)
    ∧ (heldAt m c n hn).2.1 (ix3 (0 : Fin 1) b cc) = chunkAcc (interTerm m c b cc) (n / 8) (n % 8 + 1)
    ∧ (heldAt m c n hn).2.2 (ix3 (0 : Fin 1) b cc) = chunkAcc (totalTerm m c b cc) (n / 8) (n % 8 + 1)
  | n, hn => by
    by_cases h0 : n % 8 = 0
    · have hs := heldAt_start m c ⟨n, hn⟩ h0
      have hs' : heldAt m c n hn = _ := hs
      rw [hs']
      obtain ⟨r1, r2, r3⟩ := regs_point m c ⟨n, hn⟩ (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) b cc
      refine ⟨?_, ?_, ?_⟩
      · dsimp only
        rw [heldStart2_eq, pay8_apply, zeroBlock1, r1, chunkAcc_first _ n h0]
      · dsimp only
        rw [heldStart3_eq, pay9_apply, zeroBlock2, r3, chunkAcc_first _ n h0]
      · dsimp only
        rw [heldStart4_eq, pay10_apply, zeroBlock3, r1, r2, chunkAcc_first _ n h0]
    · have hs := heldAt_later m c ⟨n, hn⟩ h0
      have hs' : heldAt m c n hn = _ := hs
      rw [hs']
      obtain ⟨p1, p2, p3⟩ := heldAt_apply c b cc (n - 1) (Nat.lt_of_le_of_lt (Nat.sub_le _ _) hn)
      obtain ⟨r1, r2, r3⟩ := regs_point m c ⟨n, hn⟩ (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) b cc
      refine ⟨?_, ?_, ?_⟩
      · dsimp only
        rw [heldLater2_eq, pay8_apply, r1, chunkAcc_next _ n h0]
        exact congrArg (· + _) p1
      · dsimp only
        rw [heldLater3_eq, pay9_apply, r3, chunkAcc_next _ n h0]
        exact congrArg (· + _) p2
      · dsimp only
        rw [heldLater4_eq, pay10_apply, r1, r2, chunkAcc_next _ n h0]
        exact congrArg (· + _) p3
  termination_by n => n
  decreasing_by omega

end Cert.KernelIdeal.Body

end
-- ==== Proof.RefSums.lean ====
/-
  The reference, read at the extended reals.  Each of its three volume reductions — over depth, height and width at
  once — is, at (b, c), the start value 0 plus the sum of all 64 depth planes: the elements that reduce to (b, c) are
  exactly those with first two coordinates (b, c), one for each (depth, row, column).  The arithmetic after the
  reductions is the same in the kernel's host code and is kept as one function of the three reduced arrays.
-/
import proofs.«156690_j20658792693788_2_alg».proof.Proof.Gen.ReferenceIdeal.Run
import proofs.«156690_j20658792693788_2_alg».proof.Proof.DiceSums
import Idealize.ShloMosaic.PureOps.Ideal.Laws
import Idealize.ShloMosaic.Lib.ValueIdx

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx DiceSums

/-- The dice loss from the three per-(batch, class) sums: class weights 1/(ms² + ε), the weighted sums over classes,
    1 − 2·nom/denom per batch entry, and the mean over the batch — the host operations both programs end with. -/
def lossOf (ms inter total : FVec Ideal S8x4 .f32) : FVec Ideal S1 .f32 :=
  Host.divf (F := Ideal) (broadcastInDim S1 ![] bcast_S_S1 (Host.reduceAdd (F := Ideal) (subf (broadcastInDim S8 ![] bcast_S_S8 (constant (F := Ideal) S_ .f32 0x3F800000#32)) (Host.divf (F := Ideal) (mulf (broadcastInDim S8 ![] bcast_S_S8 (constant (F := Ideal) S_ .f32 0x40000000#32)) (Host.reduceAdd (F := Ideal) (mulf (Host.divf (F := Ideal) (broadcastInDim S8x4 ![] bcast_S_S8x4 (constant (F := Ideal) S_ .f32 0x3F800000#32)) (addf (mulf ms ms) (broadcastInDim S8x4 ![] bcast_S_S8x4 (constant (F := Ideal) S_ .f32 0x33D6BF95#32)))) inter) (constant (F := Ideal) S_ .f32 0x00000000#32) reducesTo_S8x4_S8_d1 h_S_)) (Host.reduceAdd (F := Ideal) (addf (mulf (Host.divf (F := Ideal) (broadcastInDim S8x4 ![] bcast_S_S8x4 (constant (F := Ideal) S_ .f32 0x3F800000#32)) (addf (mulf ms ms) (broadcastInDim S8x4 ![] bcast_S_S8x4 (constant (F := Ideal) S_ .f32 0x33D6BF95#32)))) total) (broadcastInDim S8x4 ![] bcast_S_S8x4 (constant (F := Ideal) S_ .f32 0x33D6BF95#32))) (constant (F := Ideal) S_ .f32 0x00000000#32) reducesTo_S8x4_S8_d1 h_S_))) (constant (F := Ideal) S_ .f32 0x00000000#32) reducesTo_S8_S_d0 h_S_)) (broadcastInDim S1 ![] bcast_S_S1 (constant (F := Ideal) S_ .f32 0x41000000#32))

/-- The elements of the volume that reduce to (b, c), listed by (depth, row, column). -/
theorem sum_fibre (x : Vol.Idx → EReal) (b : Fin 8) (c : Fin 4) :
    (∑ i ∈ Finset.univ.filter (fun i : S8x4x64x128x128.Idx => reducesTo_S8x4x64x128x128_S8x4_d2_3_4.drop i = ix2 b c), x i)
      = ∑ d : Fin 64, ∑ y : Fin 128, ∑ z : Fin 128, x (ix5 b c d y z) := by
  symm
  rw [← Finset.sum_product', ← Finset.sum_product', Finset.univ_product_univ, Finset.univ_product_univ]
  refine Finset.sum_bij (fun (p : (Fin 64 × Fin 128) × Fin 128) _ => ix5 b c p.1.1 p.1.2 p.2) ?_ ?_ ?_ ?_
  · intro p _
    rw [Finset.mem_filter]
    refine ⟨Finset.mem_univ _, ?_⟩
    funext a; apply Fin.ext
    match a with
    | ⟨0, _⟩ => rfl
    | ⟨1, _⟩ => rfl
  · intro p _ q _ h
    have h2 := congrArg (fun j => (j (2 : Fin 5)).val) h
    have h3 := congrArg (fun j => (j (3 : Fin 5)).val) h
    have h4 := congrArg (fun j => (j (4 : Fin 5)).val) h
    exact Prod.ext (Prod.ext (Fin.ext h2) (Fin.ext h3)) (Fin.ext h4)
  · intro i hi
    rw [Finset.mem_filter] at hi
    have h0 : (i 0).val = b.val := congrArg (fun j => (j (0 : Fin 2)).val) hi.2
    have h1 : (i 1).val = c.val := congrArg (fun j => (j (1 : Fin 2)).val) hi.2
    have l2 : (i 2).val < 64 := (i 2).isLt
    have l3 : (i 3).val < 128 := (i 3).isLt
    have l4 : (i 4).val < 128 := (i 4).isLt
    refine ⟨((⟨(i 2).val, l2⟩, ⟨(i 3).val, l3⟩), ⟨(i 4).val, l4⟩), ?_, ?_⟩
    · simp only [Finset.mem_univ]
    funext a; apply Fin.ext
    match a with
    | ⟨0, _⟩ => exact h0.symm
    | ⟨1, _⟩ => exact h1.symm
    | ⟨2, _⟩ => rfl
    | ⟨3, _⟩ => rfl
    | ⟨4, _⟩ => rfl
  · intro p _; rfl

/-- A volume reduction of the reference at (b, c): zero plus all 64 planes. -/
theorem vol_apply (x : FVec Ideal S8x4x64x128x128 .f32) (b : Fin 8) (c : Fin 4) :
    Host.reduceAdd (F := Ideal) x (constant (F := Ideal) S_ .f32 0x00000000#32) reducesTo_S8x4x64x128x128_S8x4_d2_3_4 h_S_ (ix2 b c)
      = 0 + volume x b c := by
  simp only [Host.reduceAdd, Ideal.hostReduceAdd_def]
  unfold Ideal.hostReduceAdd
  refine congrArg₂ (· + ·) Ideal.ofBits_zero_f32 ?_
  rw [sum_fibre x b c]
  unfold volume
  rw [← Fin.sum_univ_eq_sum_range (fun d => plane x b c d) 64]
  exact Finset.sum_congr rfl fun d _ => (plane_of_lt x b c d).symm

end Cert.ReferenceIdeal.RefValue

end
-- ==== Proof.IdealFinal.lean ====
/-
  From the accumulators to the program's result.  Each output array [2,8,4] is written one chunk block at a time, by the
  chunk's last substep, with that chunk's finished accumulator: at (ch, b, c) the sum, from zero, of chunk ch's eight
  per-point terms.  The host code after the region adds the two chunks onto zero — which, by the regrouping of the
  sum over all 64 depth planes, is what the reference's reduction over the whole volume gives — and then applies to
  the three [8,4] arrays the same arithmetic as the reference.
-/
import proofs.«156690_j20658792693788_2_alg».proof.Proof.IdealHeld
import proofs.«156690_j20658792693788_2_alg».proof.Proof.RefSums
import Idealize.ShloMosaic.Lib.StableHlo.Run
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx DiceSums
open Cert.ReferenceIdeal.RefValue (lossOf)

variable (m : (ℓ : Loc nD τ sig) → Buf (Elt Ideal) ℓ) (ρ : Dev nD → PrngReg)

/-- A finished output array: at (ch, b, c), chunk `ch`'s eight per-point terms `g b c` added onto zero. -/
def finalOf (g : Fin 8 → Fin 4 → ℕ → EReal) : S2x8x4.Idx → EReal :=
  fun i => chunkAcc (g ⟨(i 1).val, (i 1).isLt⟩ ⟨(i 2).val, (i 2).isLt⟩) (i 0).val 8

theorem finalOf_at (g : Fin 8 → Fin 4 → ℕ → EReal) (i : S2x8x4.Idx) (ch : ℕ) (b : Fin 8) (cc : Fin 4)
    (h0 : (i 0).val = ch) (h1 : (i 1).val = b.val) (h2 : (i 2).val = cc.val) : finalOf g i = chunkAcc (g b cc) ch 8 := by
  unfold finalOf
  have e1 : (⟨(i 1).val, (i 1).isLt⟩ : Fin 8) = b := Fin.ext h1
  have e2 : (⟨(i 2).val, (i 2).isLt⟩ : Fin 4) = cc := Fin.ext h2
  rw [e1, e2, h0]

theorem outIndex2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- What a chunk's last substep writes back to output 0: that chunk's block of the finished sums. -/
theorem flushed2 (c : Dev nD) (t : Fin cfg0.N) (hf : (cfg0.win 2).flush t = true) :
    (dats m 0 c).flushed 2 t = ((cfg0.win 2).blk t).view.read (Elt Ideal) (finalOf (maskTerm m c)) := by
  show (cfg0.win 2).cut (grid0.coords t) ((dats m 0 c).after 2 t) = _
  rw [after2]
  funext y
  have h7 : t.val % 8 = 7 := (flush0_2 t).mp hf
  obtain ⟨i0, i1, i2⟩ := outIndex2 t
  have l0 : (y 0).val < 1 := (y 0).isLt
  have l1 : (y 1).val < 8 := (y 1).isLt
  have l2 : (y 2).val < 4 := (y 2).isLt
  have e : (cfg0.win 2).xinj (grid0.coords t) y = ix3 (0 : Fin 1) (⟨(y 1).val, l1⟩ : Fin 8) (⟨(y 2).val, l2⟩ : Fin 4) := by
    funext a; apply Fin.ext
    match a with
    | ⟨0, _⟩ => show (y 0).val = 0; omega
    | ⟨1, _⟩ => rfl
    | ⟨2, _⟩ => rfl
  show (heldAt m c t.val t.isLt).1 ((cfg0.win 2).xinj (grid0.coords t) y) = finalOf (maskTerm m c) (((cfg0.win 2).blk t).view.emb y)
  rw [e, (heldAt_apply m c ⟨(y 1).val, l1⟩ ⟨(y 2).val, l2⟩ t.val t.isLt).1, h7]
  symm
  refine finalOf_at (maskTerm m c) _ (t.val / 8) ⟨(y 1).val, l1⟩ ⟨(y 2).val, l2⟩ ?_ ?_ ?_
  · show win0_2.index t 0 * 1 + 1 * (y 0).val = t.val / 8; rw [i0]; omega
  · show win0_2.index t 1 * 8 + 1 * (y 1).val = (y 1).val; rw [i1]; omega
  · show win0_2.index t 2 * 4 + 1 * (y 2).val = (y 2).val; rw [i2]; omega

/-- Every element of output 0's array lies in the block its chunk's last substep writes back. -/
theorem covered2 (c : Dev nD) (i : ((cfg0.win 2).arr.view.loc (c.tc : Thread nD τ)).2.ty.Idx) :
    ∃ t : Fin cfg0.N, (cfg0.win 2).flush t = true ∧ i ∈ ((cfg0.win 2).blk t).view.set := by
  have l0 : (i 0 : Nat) < 2 := (i 0).isLt
  have l1 : (i 1 : Nat) < 8 := (i 1).isLt
  have l2 : (i 2 : Nat) < 4 := (i 2).isLt
  have ht : 8 * (i 0 : Nat) + 7 < grid0.N := by rw [N_0]; omega
  obtain ⟨t, htv⟩ : ∃ t : Fin cfg0.N, t.val = 8 * (i 0 : Nat) + 7 := ⟨⟨_, ht⟩, rfl⟩
  refine ⟨t, (flush0_2 t).mpr (by omega), ?_⟩
  obtain ⟨i0, i1, i2⟩ := outIndex2 t
  show i ∈ ((View.whole main_call0_v0_0).slice (win0_2.rect t)).set
  rw [View.set_slice_whole, Rect.mem_set_unit]
  intro a
  match a with
  | ⟨0, _⟩ =>
    show win0_2.index t 0 * 1 ≤ (i 0 : Nat) ∧ (i 0 : Nat) < win0_2.index t 0 * 1 + 1
    rw [i0]; omega
  | ⟨1, _⟩ =>
    show win0_2.index t 1 * 8 ≤ (i 1 : Nat) ∧ (i 1 : Nat) < win0_2.index t 1 * 8 + 8
    rw [i1]; omega
  | ⟨2, _⟩ =>
    show win0_2.index t 2 * 4 ≤ (i 2 : Nat) ∧ (i 2 : Nat) < win0_2.index t 2 * 4 + 4
    rw [i2]; omega

/-- So output 0's array ends holding the finished sums. -/
theorem final2 (c : Dev nD) : (dats m 0 c).arrAt 2 cfg0.N = finalOf (maskTerm m c) :=
  (dats m 0 c).arrAt_eq_of_cover 2 (finalOf (maskTerm m c)) (flushed2 m c) (covered2 c)

theorem outIndex3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

/-- What a chunk's last substep writes back to output 1: that chunk's block of the finished sums. -/
theorem flushed3 (c : Dev nD) (t : Fin cfg0.N) (hf : (cfg0.win 3).flush t = true) :
    (dats m 0 c).flushed 3 t = ((cfg0.win 3).blk t).view.read (Elt Ideal) (finalOf (interTerm m c)) := by
  show (cfg0.win 3).cut (grid0.coords t) ((dats m 0 c).after 3 t) = _
  rw [after3]
  funext y
  have h7 : t.val % 8 = 7 := (flush0_3 t).mp hf
  obtain ⟨i0, i1, i2⟩ := outIndex3 t
  have l0 : (y 0).val < 1 := (y 0).isLt
  have l1 : (y 1).val < 8 := (y 1).isLt
  have l2 : (y 2).val < 4 := (y 2).isLt
  have e : (cfg0.win 3).xinj (grid0.coords t) y = ix3 (0 : Fin 1) (⟨(y 1).val, l1⟩ : Fin 8) (⟨(y 2).val, l2⟩ : Fin 4) := by
    funext a; apply Fin.ext
    match a with
    | ⟨0, _⟩ => show (y 0).val = 0; omega
    | ⟨1, _⟩ => rfl
    | ⟨2, _⟩ => rfl
  show (heldAt m c t.val t.isLt).2.1 ((cfg0.win 3).xinj (grid0.coords t) y) = finalOf (interTerm m c) (((cfg0.win 3).blk t).view.emb y)
  rw [e, (heldAt_apply m c ⟨(y 1).val, l1⟩ ⟨(y 2).val, l2⟩ t.val t.isLt).2.1, h7]
  symm
  refine finalOf_at (interTerm m c) _ (t.val / 8) ⟨(y 1).val, l1⟩ ⟨(y 2).val, l2⟩ ?_ ?_ ?_
  · show win0_3.index t 0 * 1 + 1 * (y 0).val = t.val / 8; rw [i0]; omega
  · show win0_3.index t 1 * 8 + 1 * (y 1).val = (y 1).val; rw [i1]; omega
  · show win0_3.index t 2 * 4 + 1 * (y 2).val = (y 2).val; rw [i2]; omega

/-- Every element of output 1's array lies in the block its chunk's last substep writes back. -/
theorem covered3 (c : Dev nD) (i : ((cfg0.win 3).arr.view.loc (c.tc : Thread nD τ)).2.ty.Idx) :
    ∃ t : Fin cfg0.N, (cfg0.win 3).flush t = true ∧ i ∈ ((cfg0.win 3).blk t).view.set := by
  have l0 : (i 0 : Nat) < 2 := (i 0).isLt
  have l1 : (i 1 : Nat) < 8 := (i 1).isLt
  have l2 : (i 2 : Nat) < 4 := (i 2).isLt
  have ht : 8 * (i 0 : Nat) + 7 < grid0.N := by rw [N_0]; omega
  obtain ⟨t, htv⟩ : ∃ t : Fin cfg0.N, t.val = 8 * (i 0 : Nat) + 7 := ⟨⟨_, ht⟩, rfl⟩
  refine ⟨t, (flush0_3 t).mpr (by omega), ?_⟩
  obtain ⟨i0, i1, i2⟩ := outIndex3 t
  show i ∈ ((View.whole main_call0_v0_1).slice (win0_3.rect t)).set
  rw [View.set_slice_whole, Rect.mem_set_unit]
  intro a
  match a with
  | ⟨0, _⟩ =>
    show win0_3.index t 0 * 1 ≤ (i 0 : Nat) ∧ (i 0 : Nat) < win0_3.index t 0 * 1 + 1
    rw [i0]; omega
  | ⟨1, _⟩ =>
    show win0_3.index t 1 * 8 ≤ (i 1 : Nat) ∧ (i 1 : Nat) < win0_3.index t 1 * 8 + 8
    rw [i1]; omega
  | ⟨2, _⟩ =>
    show win0_3.index t 2 * 4 ≤ (i 2 : Nat) ∧ (i 2 : Nat) < win0_3.index t 2 * 4 + 4
    rw [i2]; omega

/-- So output 1's array ends holding the finished sums. -/
theorem final3 (c : Dev nD) : (dats m 0 c).arrAt 3 cfg0.N = finalOf (interTerm m c) :=
  (dats m 0 c).arrAt_eq_of_cover 3 (finalOf (interTerm m c)) (flushed3 m c) (covered3 c)

theorem outIndex4 : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)

/-- What a chunk's last substep writes back to output 2: that chunk's block of the finished sums. -/
theorem flushed4 (c : Dev nD) (t : Fin cfg0.N) (hf : (cfg0.win 4).flush t = true) :
    (dats m 0 c).flushed 4 t = ((cfg0.win 4).blk t).view.read (Elt Ideal) (finalOf (totalTerm m c)) := by
  show (cfg0.win 4).cut (grid0.coords t) ((dats m 0 c).after 4 t) = _
  rw [after4]
  funext y
  have h7 : t.val % 8 = 7 := (flush0_4 t).mp hf
  obtain ⟨i0, i1, i2⟩ := outIndex4 t
  have l0 : (y 0).val < 1 := (y 0).isLt
  have l1 : (y 1).val < 8 := (y 1).isLt
  have l2 : (y 2).val < 4 := (y 2).isLt
  have e : (cfg0.win 4).xinj (grid0.coords t) y = ix3 (0 : Fin 1) (⟨(y 1).val, l1⟩ : Fin 8) (⟨(y 2).val, l2⟩ : Fin 4) := by
    funext a; apply Fin.ext
    match a with
    | ⟨0, _⟩ => show (y 0).val = 0; omega
    | ⟨1, _⟩ => rfl
    | ⟨2, _⟩ => rfl
  show (heldAt m c t.val t.isLt).2.2 ((cfg0.win 4).xinj (grid0.coords t) y) = finalOf (totalTerm m c) (((cfg0.win 4).blk t).view.emb y)
  rw [e, (heldAt_apply m c ⟨(y 1).val, l1⟩ ⟨(y 2).val, l2⟩ t.val t.isLt).2.2, h7]
  symm
  refine finalOf_at (totalTerm m c) _ (t.val / 8) ⟨(y 1).val, l1⟩ ⟨(y 2).val, l2⟩ ?_ ?_ ?_
  · show win0_4.index t 0 * 1 + 1 * (y 0).val = t.val / 8; rw [i0]; omega
  · show win0_4.index t 1 * 8 + 1 * (y 1).val = (y 1).val; rw [i1]; omega
  · show win0_4.index t 2 * 4 + 1 * (y 2).val = (y 2).val; rw [i2]; omega

/-- Every element of output 2's array lies in the block its chunk's last substep writes back. -/
theorem covered4 (c : Dev nD) (i : ((cfg0.win 4).arr.view.loc (c.tc : Thread nD τ)).2.ty.Idx) :
    ∃ t : Fin cfg0.N, (cfg0.win 4).flush t = true ∧ i ∈ ((cfg0.win 4).blk t).view.set := by
  have l0 : (i 0 : Nat) < 2 := (i 0).isLt
  have l1 : (i 1 : Nat) < 8 := (i 1).isLt
  have l2 : (i 2 : Nat) < 4 := (i 2).isLt
  have ht : 8 * (i 0 : Nat) + 7 < grid0.N := by rw [N_0]; omega
  obtain ⟨t, htv⟩ : ∃ t : Fin cfg0.N, t.val = 8 * (i 0 : Nat) + 7 := ⟨⟨_, ht⟩, rfl⟩
  refine ⟨t, (flush0_4 t).mpr (by omega), ?_⟩
  obtain ⟨i0, i1, i2⟩ := outIndex4 t
  show i ∈ ((View.whole main_call0_v0_2).slice (win0_4.rect t)).set
  rw [View.set_slice_whole, Rect.mem_set_unit]
  intro a
  match a with
  | ⟨0, _⟩ =>
    show win0_4.index t 0 * 1 ≤ (i 0 : Nat) ∧ (i 0 : Nat) < win0_4.index t 0 * 1 + 1
    rw [i0]; omega
  | ⟨1, _⟩ =>
    show win0_4.index t 1 * 8 ≤ (i 1 : Nat) ∧ (i 1 : Nat) < win0_4.index t 1 * 8 + 8
    rw [i1]; omega
  | ⟨2, _⟩ =>
    show win0_4.index t 2 * 4 ≤ (i 2 : Nat) ∧ (i 2 : Nat) < win0_4.index t 2 * 4 + 4
    rw [i2]; omega

/-- So output 2's array ends holding the finished sums. -/
theorem final4 (c : Dev nD) : (dats m 0 c).arrAt 4 cfg0.N = finalOf (totalTerm m c) :=
  (dats m 0 c).arrAt_eq_of_cover 4 (finalOf (totalTerm m c)) (flushed4 m c) (covered4 c)

/-! ## The host lines after the region -/

/-- The host's sum of an output array over its chunk axis. -/
def chunkSum (P : FVec Ideal S2x8x4 .f32) : FVec Ideal S8x4 .f32 :=
  Host.reduceAdd (F := Ideal) P (constant (F := Ideal) S_ .f32 0x00000000#32) reducesTo_S2x8x4_S8x4_d0 h_S_

theorem chunkSum_apply (P : FVec Ideal S2x8x4 .f32) (b : Fin 8) (cc : Fin 4) :
    chunkSum P (ix2 b cc) = 0 + ∑ ch : Fin 2, P (ix3 ch b cc) := by
  unfold chunkSum
  simp only [Host.reduceAdd, Ideal.hostReduceAdd_def]
  rw [Ideal.hostReduceAdd_single reducesTo_S2x8x4_S8x4_d0 (by decide)]
  refine congrArg₂ (· + ·) Ideal.ofBits_zero_f32 (Finset.sum_congr rfl fun ch _ => ?_)
  exact congrArg P (funext fun a => Fin.ext (by match a with | ⟨0, _⟩ => rfl | ⟨1, _⟩ => rfl | ⟨2, _⟩ => rfl))

/-- The two chunks of a finished array, added onto zero. -/
theorem chunkSum_final (g : Fin 8 → Fin 4 → ℕ → EReal) (b : Fin 8) (cc : Fin 4) :
    chunkSum (finalOf g) (ix2 b cc) = twoChunks (g b cc) := by
  rw [chunkSum_apply]
  unfold twoChunks
  rw [← Fin.sum_univ_eq_sum_range (fun ch => chunkAcc (g b cc) ch 8) 2]
  exact congrArg (0 + ·) (Finset.sum_congr rfl fun ch _ => finalOf_at g _ ch.val b cc rfl rfl rfl)

set_option maxHeartbeats 4000000 in
/-- The program's result buffer after the host lines: the shared closing arithmetic of the three chunk sums. -/
theorem tail_eq (c : Dev nD) :
    Pipeline.afterTail₀ cfgs (dats m) 0 (V0 m) [hostOps1] c main_v0
      = lossOf (chunkSum (Pipeline.withArrays (cfgs 0).spec c (V0 m c) (fun w => (dats m 0 c).arrAt w (cfgs 0).N) (Proc.devRef .tc main_call0_v0_0)))
          (chunkSum (Pipeline.withArrays (cfgs 0).spec c (V0 m c) (fun w => (dats m 0 c).arrAt w (cfgs 0).N) (Proc.devRef .tc main_call0_v0_1)))
          (chunkSum (Pipeline.withArrays (cfgs 0).spec c (V0 m c) (fun w => (dats m 0 c).arrAt w (cfgs 0).N) (Proc.devRef .tc main_call0_v0_2))) := by
  unfold Pipeline.afterTail₀
  simp only [List.flatten_cons, List.flatten_nil, List.append_nil]
  after_results
  rfl

end Cert.KernelIdeal.Body

end
-- ==== Proof.IdealResult.lean ====
/-
  The kernel's result is the reference's arithmetic on the reference's three reductions.  At every (b, c) the host's
  sum of an output array over its two chunks is the sum over chunks, substeps and loop trips of the depth planes —
  all 64 of them, each once — which is the reference's reduction of the whole volume; for the third output the planes
  of the two inputs are summed separately by the kernel and together by the reference.
-/
import proofs.«156690_j20658792693788_2_alg».proof.Proof.IdealFinal

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx DiceSums
open Cert.ReferenceIdeal.RefValue (lossOf vol_apply)

variable (m : (ℓ : Loc nD τ sig) → Buf (Elt Ideal) ℓ) (ρ : Dev nD → PrngReg)

theorem maskSums_eq (c : Dev nD) :
    chunkSum (finalOf (maskTerm m c)) = (Host.reduceAdd (F := Ideal) (masksArr m c) (constant (F := Ideal) Cert.ReferenceIdeal.S_ .f32 0x00000000#32) Cert.ReferenceIdeal.Gen.reducesTo_S8x4x64x128x128_S8x4_d2_3_4 Cert.ReferenceIdeal.Gen.h_S_) := by
  funext j
  obtain ⟨b, cc, rfl⟩ : ∃ (b : Fin 8) (cc : Fin 4), j = ix2 b cc := ⟨j 0, j 1, eq_ix2 j⟩
  rw [chunkSum_final, vol_apply]
  exact twoChunks_pointSum _ b cc

theorem interSums_eq (c : Dev nD) :
    chunkSum (finalOf (interTerm m c)) = (Host.reduceAdd (F := Ideal) (mulf (F := Ideal) (outsArr m c) (masksArr m c)) (constant (F := Ideal) Cert.ReferenceIdeal.S_ .f32 0x00000000#32) Cert.ReferenceIdeal.Gen.reducesTo_S8x4x64x128x128_S8x4_d2_3_4 Cert.ReferenceIdeal.Gen.h_S_) := by
  funext j
  obtain ⟨b, cc, rfl⟩ : ∃ (b : Fin 8) (cc : Fin 4), j = ix2 b cc := ⟨j 0, j 1, eq_ix2 j⟩
  rw [chunkSum_final, vol_apply]
  exact twoChunks_pointSum _ b cc

theorem totalSums_eq (c : Dev nD) :
    chunkSum (finalOf (totalTerm m c)) = (Host.reduceAdd (F := Ideal) (addf (F := Ideal) (outsArr m c) (masksArr m c)) (constant (F := Ideal) Cert.ReferenceIdeal.S_ .f32 0x00000000#32) Cert.ReferenceIdeal.Gen.reducesTo_S8x4x64x128x128_S8x4_d2_3_4 Cert.ReferenceIdeal.Gen.h_S_) := by
  funext j
  obtain ⟨b, cc, rfl⟩ : ∃ (b : Fin 8) (cc : Fin 4), j = ix2 b cc := ⟨j 0, j 1, eq_ix2 j⟩
  rw [chunkSum_final, vol_apply]
  exact twoChunks_pointSum_add _ _ b cc

/-- The reference's result as a function of the two argument arrays. -/
def refLoss (o k : FVec Ideal Cert.ReferenceIdeal.S8x4x64x128x128 .f32) : FVec Ideal Cert.ReferenceIdeal.S1 .f32 :=
  lossOf (Host.reduceAdd (F := Ideal) k (constant (F := Ideal) Cert.ReferenceIdeal.S_ .f32 0x00000000#32) Cert.ReferenceIdeal.Gen.reducesTo_S8x4x64x128x128_S8x4_d2_3_4 Cert.ReferenceIdeal.Gen.h_S_) (Host.reduceAdd (F := Ideal) (mulf (F := Ideal) o k) (constant (F := Ideal) Cert.ReferenceIdeal.S_ .f32 0x00000000#32) Cert.ReferenceIdeal.Gen.reducesTo_S8x4x64x128x128_S8x4_d2_3_4 Cert.ReferenceIdeal.Gen.h_S_) (Host.reduceAdd (F := Ideal) (addf (F := Ideal) o k) (constant (F := Ideal) Cert.ReferenceIdeal.S_ .f32 0x00000000#32) Cert.ReferenceIdeal.Gen.reducesTo_S8x4x64x128x128_S8x4_d2_3_4 Cert.ReferenceIdeal.Gen.h_S_)

/-- What the host lines after the region leave in the result buffer. -/
theorem result_eq (c : Dev nD) :
    Pipeline.afterTail₀ cfgs (dats m) 0 (V0 m) [hostOps1] c main_v0 = refLoss (outsArr m c) (masksArr m c) := by
  have e2 : Pipeline.withArrays (cfgs 0).spec c (V0 m c) (fun w => (dats m 0 c).arrAt w (cfgs 0).N) (Proc.devRef .tc main_call0_v0_0)
      = finalOf (maskTerm m c) := (Pipeline.withArrays_arr spec0 launch0.win.arr_inj c _ _ 2).trans (final2 m c)
  have e3 : Pipeline.withArrays (cfgs 0).spec c (V0 m c) (fun w => (dats m 0 c).arrAt w (cfgs 0).N) (Proc.devRef .tc main_call0_v0_1)
      = finalOf (interTerm m c) := (Pipeline.withArrays_arr spec0 launch0.win.arr_inj c _ _ 3).trans (final3 m c)
  have e4 : Pipeline.withArrays (cfgs 0).spec c (V0 m c) (fun w => (dats m 0 c).arrAt w (cfgs 0).N) (Proc.devRef .tc main_call0_v0_2)
      = finalOf (totalTerm m c) := (Pipeline.withArrays_arr spec0 launch0.win.arr_inj c _ _ 4).trans (final4 m c)
  rw [tail_eq, e2, e3, e4, maskSums_eq, interSums_eq, totalSums_eq]
  rfl

/-- The kernel's run, read: the result buffer at the reference's function of the argument arrays, the arguments
    unchanged. -/
theorem run_value : θ_run defs (onTc (τ := τ) (main (F := Ideal))) ⟨m, fun _ => 0, ρ⟩ (fun r => ∀ c : Dev nD,
      r.2.mem ((c.tc : Thread nD τ).loc main_v0) = refLoss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v0 (Pipeline.mem_restRefs_of main_v0 (by decide) (by decide))).trans (result_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main (F := Ideal) m ρ)

end Cert.KernelIdeal.Body

end
-- ==== Proof.lean ====
/-
  The certificate of the dice-loss kernel against its reference.

  The kernel streams the two [8,4,64,128,128] arrays through a 2 × 8 grid, four depth planes per grid point, and keeps
  three [8,4] partial sums per chunk — of the masks, of outputs·masks, and of outputs + masks (as the sum of the two
  separate sums) — in output blocks that stay resident over a chunk's eight substeps; the host adds the two chunks and
  finishes the dice arithmetic.  The reference reduces the whole volume at once and applies the same arithmetic.

  Frames: for both printed forms of the kernel, the pipeline's run from the body's two runs (first substep of a chunk:
  zero-fill, then add; later substeps: add onto what the substep before left), the counted loop by its invariant.
  For the reference, its host operations run one after the other.
  Values: the accumulators point by point as sums of depth planes; the output arrays block by block; regrouping the
  sum over 64 planes as chunks × substeps × trips (associativity and commutativity of + on the extended reals, no
  finiteness needed); distributing the sum over outputs + masks.  The ideal pass rewrote nothing, so the
  idealization claim is trivial.
-/
import proofs.«156690_j20658792693788_2_alg».proof.Defs
import proofs.«156690_j20658792693788_2_alg».proof.Proof.Gen.Kernel
import proofs.«156690_j20658792693788_2_alg».proof.Proof.Gen.KernelIdeal
import proofs.«156690_j20658792693788_2_alg».proof.Proof.Gen.ReferenceIdeal
import proofs.«156690_j20658792693788_2_alg».proof.Proof.Gen.Pre_finite_inputs
import proofs.«156690_j20658792693788_2_alg».proof.Proof.Gen.ReferenceIdeal.Run
import proofs.«156690_j20658792693788_2_alg».proof.Proof.BitsFrame
import proofs.«156690_j20658792693788_2_alg».proof.Proof.IdealResult

noncomputable section

namespace Cert.Proof

open Idealize.ShloMosaic Idealize.ShloMosaic.TcCoe Idealize.SL.Sem

theorem frame_kernel : Cert.frame_Kernel := fun m ρ _ => Cert.Kernel.Body.frame (F := Bits) m ρ

theorem frame_kernelIdeal : Cert.frame_KernelIdeal := fun m ρ _ => Cert.KernelIdeal.Body.frame (F := Ideal) m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the reference's function of the argument arrays, which agree. -/
theorem algebraic : Cert.algebraic_KernelIdeal_ReferenceIdeal := by
  intro m ρ m' ρ' _ hagree
  refine ⟨fun c => Cert.KernelIdeal.Body.refLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
